-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x1x4096 : Shape := ⟨3, ![16, 1, 4096]⟩
abbrev S16x4096 : Shape := ⟨2, ![16, 4096]⟩
abbrev S_ : Shape := ⟨0, ![]⟩
abbrev S16 : Shape := ⟨1, ![16]⟩
abbrev S1x1024x3 : Shape := ⟨3, ![1, 1024, 3]⟩
abbrev S1x1x1024 : Shape := ⟨3, ![1, 1, 1024]⟩
abbrev S1x1x4096 : Shape := ⟨3, ![1, 1, 4096]⟩
abbrev S1x1024 : Shape := ⟨2, ![1, 1024]⟩
abbrev S1x1024x1024 : Shape := ⟨3, ![1, 1024, 1024]⟩
abbrev S1x1024x1 : Shape := ⟨3, ![1, 1024, 1]⟩

abbrev nBuf : Space → Nat
  | .hbm => 21
  | .vmem => 10
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x1x4096, .f32⟩
  | .hbm, ⟨3, _⟩ => ⟨S16x1x4096, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | .local _ .vmem, ⟨8, _⟩ => ⟨S1x1x1024, .f32⟩
  | .local _ .vmem, ⟨9, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_v0_0 : Ref sig .tc := ⟨.hbm, 2, rfl⟩
abbrev main_call0_call0_v0_1 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_cst : Ref sig .tc := ⟨.hbm, 6, rfl⟩
abbrev main_call0_v1 : Ref sig .tc := ⟨.hbm, 7, rfl⟩
abbrev main_call0_cst_0 : Ref sig .tc := ⟨.hbm, 8, rfl⟩
abbrev main_call0_v2 : Ref sig .tc := ⟨.hbm, 9, rfl⟩
abbrev main_call0_v3 : Ref sig .tc := ⟨.hbm, 10, rfl⟩
abbrev main_call0_cst_1 : Ref sig .tc := ⟨.hbm, 11, rfl⟩
abbrev main_call0_v4 : Ref sig .tc := ⟨.hbm, 12, rfl⟩
abbrev main_call0_cst_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_3 : Ref sig .tc := ⟨.hbm, 17, rfl⟩
abbrev main_call0_v8 : Ref sig .tc := ⟨.hbm, 18, rfl⟩
abbrev main_call0_cst_4 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_mult1 (i : grid0.Coords) : BitVec 32 :=
  let arg2 : BitVec 32 := BitVec.ofNat 32 (i 2).val
  let c1024_i32 : BitVec 32 := 1024#32
  let v31 : BitVec 32 := Scalar.muli arg2 c1024_i32
  v31
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v31 : BitVec 32 := Scalar.muli arg2 c1024_i32
  let v32 : BitVec 32 := v31
  let v33 : Index := Scalar.indexCast v32
  ![0, 0, v33.toNat]
def k0_cond3 (i : grid0.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_24 : BitVec 32 := 0#32
  let v43 : BitVec 1 := Scalar.cmpi .ne v42 c0_i32_24
  v43

def k0_cond4 (i : grid0.Coords) : BitVec 1 :=
  let arg1 : BitVec 32 := BitVec.ofNat 32 (i 1).val
  let c3_i32_25 : BitVec 32 := 3#32
  let v44 : BitVec 1 := Scalar.cmpi .eq arg1 c3_i32_25
  let arg2 : BitVec 32 := BitVec.ofNat 32 (i 2).val
  let c3_i32_26 : BitVec 32 := 3#32
  let v45 : BitVec 1 := Scalar.cmpi .eq arg2 c3_i32_26
  let v46 : BitVec 1 := Scalar.andi v44 v45
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  shapeCasts_S16x1x4096_S16x4096 : S16x1x4096.ShapeCasts S16x4096
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  inb_S1x1024x3_S1x1024x3_0_0_0 : ∀ a, (![0, 0, 0] : Fin 3 → Nat) a + S1x1024x3.size a ≤ S1x1024x3.size a
  h_S1x1024x3 : 0 < S1x1024x3.numel
  reduces_S1x1024x3_S1x1024 : S1x1024x3.Reduces [2] S1x1024
  shapeCasts_S1x1024_S1x1024x1 : S1x1024.ShapeCasts S1x1024x1
  shapeCasts_S1x1024_S1x1x1024 : S1x1024.ShapeCasts S1x1x1024
  broadcasts_S1x1024x1_S1x1024x1024 : S1x1024x1.Broadcasts S1x1024x1024
  broadcasts_S1x1x1024_S1x1024x1024 : S1x1x1024.Broadcasts S1x1024x1024
  reduces_S1x1024x1024_S1x1024 : S1x1024x1024.Reduces [2] S1x1024
  reduces_S1x1024x1024_S1x1024_2 : S1x1024x1024.Reduces [1] S1x1024
  dot_S1x1024x3_S1x1024x3_S1x1024x1024_2_2_1_1_0_0_wf : DotDims.WF S1x1024x3 S1x1024x3 S1x1024x1024 [2] [2] [1] [1] [0] [0]
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S16x4096x3.size a
  hwx0_1 : ∀ i : grid0.Coords, EltTy.bits .f32 = 32 ∨ (Rect.block (s := S16x4096x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S16x1x4096.size a
  hwx0_2 : ∀ i : grid0.Coords, EltTy.bits .f32 = 32 ∨ (Rect.block (s := S16x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

def dot_S1x1024x3_S1x1024x3_S1x1024x1024_2_2_1_1_0_0 : DotDims S1x1024x3 S1x1024x3 S1x1024x1024 where
  lhsContracting := [2]
  rhsContracting := [2]
  lhsNonContracting := [1]
  rhsNonContracting := [1]
  lhsBatch := [0]
  rhsBatch := [0]
  wf := dot_S1x1024x3_S1x1024x3_S1x1024x1024_2_2_1_1_0_0_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_call0_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_call0_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.ChamferSpec.lean ====
/-
  The squared-distance table of two point clouds and its two nearest-neighbour minima, on the extended reals.

  For clouds X, Y of 16 batches of 4096 points in 3 coordinates, entry (b, n, q) of the table is
  |X(b,n)|² + |Y(b,q)|² − 2·⟨X(b,n), Y(b,q)⟩. It is written here in two arrangements: with the factor −2 moved
  inside the inner product (`dist`), and with the inner product taken first, the product with 2 subtracted and the
  result clamped below at 0 (`distR`). On finite entries clamping the first gives the second. The minimum over q
  (over n) of the clamped table is the clamp of the minimum of the unclamped one, since x ↦ max x 0 is monotone and
  fixes +∞. Minima are taken over initial segments of the naturals so that they can be built up a run of
  consecutive indices at a time.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-! ## The float constants, as extended reals -/

theorem ofBits_neg_two : Ideal.ofBits .f32 0xC0000000#32 = ((-2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

/-! ## The table -/

/-- The shape of a cloud: 16 batches of 4096 points with 3 coordinates. -/
abbrev Pts : Shape := ⟨3, ![16, 4096, 3]⟩

/-- A cloud all of whose coordinates are real numbers. -/
def Finite (X : Pts.Idx → EReal) : Prop := ∀ i, ∃ r : ℝ, X i = (r : EReal)

/-- Coordinate k of point n of batch b, the three numbers taken modulo the extents. -/
def pt (X : Pts.Idx → EReal) (b n k : ℕ) : EReal :=
  X (ix3 (⟨b % 16, Nat.mod_lt _ (by norm_num)⟩ : Fin 16) (⟨n % 4096, Nat.mod_lt _ (by norm_num)⟩ : Fin 4096)
    (⟨k % 3, Nat.mod_lt _ (by norm_num)⟩ : Fin 3))

/-- The squared length of point n of batch b. -/
def sq (X : Pts.Idx → EReal) (b n : ℕ) : EReal := ∑ k : Fin 3, pt X b n k.val * pt X b n k.val

/-- Squared distance with the factor −2 inside the inner product. -/
def dist (X Y : Pts.Idx → EReal) (b n q : ℕ) : EReal :=
  (sq X b n + sq Y b q) + ∑ k : Fin 3, pt X b n k.val * (((-2 : ℝ) : EReal) * pt Y b q k.val)

/-- Squared distance with the inner product taken first, clamped below at 0. -/
def distR (X Y : Pts.Idx → EReal) (b n q : ℕ) : EReal :=
  max ((sq X b n + sq Y b q) - ((2 : ℝ) : EReal) * ∑ k : Fin 3, pt X b n k.val * pt Y b q k.val) 0

theorem Finite.pt {X : Pts.Idx → EReal} (h : Finite X) (b n k : ℕ) : ∃ r : ℝ, pt X b n k = (r : EReal) := h _

/-- On real entries the clamp of the first arrangement is the second. -/
theorem max_dist_zero {X Y : Pts.Idx → EReal} (hX : Finite X) (hY : Finite Y) (b n q : ℕ) :
    max (dist X Y b n q) 0 = distR X Y b n q := by
  unfold dist distR sq
  obtain ⟨x0, h0⟩ := hX.pt b n 0; obtain ⟨x1, h1⟩ := hX.pt b n 1; obtain ⟨x2, h2⟩ := hX.pt b n 2
  obtain ⟨y0, g0⟩ := hY.pt b q 0; obtain ⟨y1, g1⟩ := hY.pt b q 1; obtain ⟨y2, g2⟩ := hY.pt b q 2
  simp only [Fin.sum_univ_three, Fin.val_zero, Fin.val_one, Fin.val_two, h0, h1, h2, g0, g1, g2]
  simp only [← EReal.coe_mul, ← EReal.coe_add, ← EReal.coe_sub]
  congr 1
  congr 1
  ring

/-! ## The two minima -/

/-- For point n of X in batch b: the least squared distance to a point of Y, clamped. -/
def rowMin (X Y : Pts.Idx → EReal) (b n : ℕ) : EReal := max ((Finset.range 4096).inf fun q => dist X Y b n q) 0

/-- For point q of Y in batch b: the least squared distance to a point of X, clamped. -/
def colMin (X Y : Pts.Idx → EReal) (b q : ℕ) : EReal := max ((Finset.range 4096).inf fun n => dist X Y b n q) 0

/-- Clamping below at 0 commutes with a minimum over a finite set (the empty minimum being +∞). -/
theorem max_inf_zero {ι : Type*} (s : Finset ι) (f : ι → EReal) :
    max (s.inf f) 0 = s.inf fun i => max (f i) 0 :=
  Finset.comp_inf_eq_inf_comp_of_is_total (fun x : EReal => max x 0)
    (fun a b hab => max_le_max hab le_rfl) (max_eq_left le_top)

theorem rowMin_eq {X Y : Pts.Idx → EReal} (hX : Finite X) (hY : Finite Y) (b n : ℕ) :
    rowMin X Y b n = (Finset.range 4096).inf fun q => distR X Y b n q := by
  unfold rowMin
  rw [max_inf_zero]
  exact Finset.inf_congr rfl fun q _ => max_dist_zero hX hY b n q

theorem colMin_eq {X Y : Pts.Idx → EReal} (hX : Finite X) (hY : Finite Y) (b q : ℕ) :
    colMin X Y b q = (Finset.range 4096).inf fun n => distR X Y b n q := by
  unfold colMin
  rw [max_inf_zero]
  exact Finset.inf_congr rfl fun n _ => max_dist_zero hX hY b n q

/-! ## Minima over initial segments, a run at a time -/

/-- A fold of `min` from +∞ is the infimum. -/
theorem fold_min_top {ι : Type*} (s : Finset ι) (f : ι → EReal) : s.fold min ⊤ f = s.inf f := rfl

/-- The minimum over the first N naturals is the minimum over `Fin N`. -/
theorem inf_range_eq_univ (f : ℕ → EReal) (N : ℕ) :
    (Finset.range N).inf f = (Finset.univ : Finset (Fin N)).inf fun s => f s.val := by
  apply le_antisymm
  · exact Finset.le_inf fun s _ => Finset.inf_le (Finset.mem_range.mpr s.isLt)
  · exact Finset.le_inf fun q hq => Finset.inf_le (s := Finset.univ) (f := fun s : Fin N => f s.val)
      (Finset.mem_univ (⟨q, Finset.mem_range.mp hq⟩ : Fin N))

/-- The minimum over the first B·(j+1) naturals: that over the first B·j, and run j of length B. -/
theorem inf_range_block (f : ℕ → EReal) (B j : ℕ) :
    (Finset.range (B * (j + 1))).inf f
      = min ((Finset.range (B * j)).inf f) ((Finset.univ : Finset (Fin B)).inf fun s => f (B * j + s.val)) := by
  apply le_antisymm
  · refine le_min (Finset.le_inf fun q hq => Finset.inf_le (Finset.mem_range.mpr ?_))
      (Finset.le_inf fun s _ => Finset.inf_le (Finset.mem_range.mpr ?_))
    · have := Finset.mem_range.mp hq; rw [Nat.mul_succ]; omega
    · have := s.isLt; rw [Nat.mul_succ]; omega
  · refine Finset.le_inf fun q hq => ?_
    have hq' := Finset.mem_range.mp hq
    rw [Nat.mul_succ] at hq'
    by_cases h : q < B * j
    · exact (min_le_left _ _).trans (Finset.inf_le (Finset.mem_range.mpr h))
    · refine (min_le_right _ _).trans ?_
      have hs : q - B * j < B := by omega
      have := Finset.inf_le (s := Finset.univ) (f := fun s : Fin B => f (B * j + s.val)) (Finset.mem_univ (⟨q - B * j, hs⟩ : Fin B))
      simpa [show B * j + (q - B * j) = q by omega] using this

/-- The minimum over no index is +∞. -/
theorem inf_range_zero (f : ℕ → EReal) : (Finset.range 0).inf f = ⊤ := by simp

end Chamfer

end
-- ==== Proof.RefMinima.lean ====
/-
  The two nearest-neighbour minima of the reference program, read at an index.

  The reference forms the table d(b, n, q) = max(|X(b,n)|² + |Y(b,q)|² − 2·⟨X(b,n), Y(b,q)⟩, 0) of clamped squared
  distances and takes its minimum over q (for each point n of X) and over n (for each point q of Y), each minimum a
  reduction by `min` from +∞ over one axis of the table. A reduction by a commutative and associative operation over
  one axis is, at a result index, the fold over that axis's coordinates of the table at the result index with the
  coordinate put back; a fold of `min` from +∞ is an infimum. Each entry of the table, opened operation by operation
  (the squared lengths are sums over the three coordinates started from 0, the inner product a sum over them, the
  factor 2 and the clamp's 0 constants broadcast to the table's shape), is the specification's clamped distance.
  On clouds of real numbers the infimum of the clamped distances is the clamp of the infimum of the unclamped ones,
  which is how the specification states the two minima.
-/
import proofs.«172423_j83425444758259_2_alg».proof.Proof.Gen.ReferenceIdeal.Read
import proofs.«172423_j83425444758259_2_alg».proof.Proof.ChamferSpec
import Idealize.ShloMosaic.PureOps.Reduce
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-! ## One entry of the table -/

/-- An entry of a cloud at an index whose three coordinates are (b, n, k) is coordinate k of point n of batch b:
    the three numbers are below the extents, so taking them modulo the extents changes nothing. -/
theorem pt_of_coords (X : (⟨S16x4096x3, .f32⟩ : BufTy).Contents (Elt Ideal)) (b : Fin 16) (n : Fin 4096) (k : Fin 3)
    (j : S16x4096x3.Idx) (h0 : (j 0).val = b.val) (h1 : (j 1).val = n.val) (h2 : (j 2).val = k.val) :
    X j = Chamfer.pt X b.val n.val k.val := by
  unfold Chamfer.pt
  refine congrArg X (funext fun a => Fin.ext ?_)
  match a with
  | ⟨0, _⟩ => exact h0.trans (Nat.mod_eq_of_lt b.isLt).symm
  | ⟨1, _⟩ => exact h1.trans (Nat.mod_eq_of_lt n.isLt).symm
  | ⟨2, _⟩ => exact h2.trans (Nat.mod_eq_of_lt k.isLt).symm

/-- Entry (b, n, q) of the clamped table: (0 + ∑ₖ X(b,n,k)²) + (0 + ∑ₖ Y(b,q,k)²) − 2·∑ₖ X(b,n,k)·Y(b,q,k), clamped
    below at 0 — the specification's clamped squared distance, the two leading zeros dropped. -/
theorem v14_entry (X Y : (⟨S16x4096x3, .f32⟩ : BufTy).Contents (Elt Ideal)) (b : Fin 16) (n q : Fin 4096) :
    val_main_v14 (F := Ideal) X Y (ix3 b n q) = Chamfer.distR X Y b.val n.val q.val := by
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply, val_main_cst_apply, val_main_cst_0_apply, val_main_cst_1_apply, val_main_cst_2_apply]
  simp only [val_main_v0_apply, val_main_v2_apply, Ideal.maximumf_def, Ideal.subf_def, Ideal.addf_def, Ideal.mulf_def,
    Ideal.ofBits_def, Ideal.ofBits_zero_f32, Chamfer.ofBits_two, zero_add]
  -- the index each operand is read at has the coordinates (b, n, k), respectively (b, q, k)
  have hx : ∀ k : Fin 3, X (idx_main_v1 (idx_main_v5 (idx_main_v7 (ix3 b n q))) k) = Chamfer.pt X b.val n.val k.val :=
    fun k => pt_of_coords X b n k _ rfl rfl rfl
  have hy : ∀ k : Fin 3, Y (idx_main_v3 (idx_main_v6 (idx_main_v8 (ix3 b n q))) k) = Chamfer.pt Y b.val q.val k.val :=
    fun k => pt_of_coords Y b q k _ rfl rfl rfl
  have hl : ∀ k : Fin 3, X (lidx_main_v4 (ix3 b n q) k) = Chamfer.pt X b.val n.val k.val :=
    fun k => pt_of_coords X b n k _ rfl rfl rfl
  have hr : ∀ k : Fin 3, Y (ridx_main_v4 (ix3 b n q) k) = Chamfer.pt Y b.val q.val k.val :=
    fun k => pt_of_coords Y b q k _ rfl rfl rfl
  simp only [hx, hy, hl, hr]
  rfl

/-! ## The two reductions as folds over the reduced axis -/

/-- The minimum over the last axis at (b, n): the fold of `min` from the initial value over q of the table at (b, n, q). -/
theorem v15_fold (X Y : (⟨S16x4096x3, .f32⟩ : BufTy).Contents (Elt Ideal)) (b : Fin 16) (n : Fin 4096) :
    val_main_v15 (F := Ideal) X Y (ix2 b n)
      = (Finset.univ : Finset (Fin 4096)).fold min (Ideal.ofBits .f32 0x7F800000#32)
          (fun q => val_main_v14 (F := Ideal) X Y (ix3 b n q)) := by
  unfold val_main_v15
  generalize val_main_v14 (F := Ideal) X Y = y
  have hR : S16x4096x4096.Reduces [2] S16x4096 := by decide
  have e := Host.reduce_eq_fold_single (α := Ideal .f32) (FloatOps.minimumf (F := Ideal) (φ := .f32)) (y : FVec Ideal S16x4096x4096 .f32)
    (val_main_cst_3 (F := Ideal)) reducesTo_S16x4096x4096_S16x4096_d2 hR h_S_ (ix2 b n)
  refine e.trans ?_
  -- (b, n) with q put back on the last axis is (b, n, q)
  have hf : (y ∘ hR.lift (ix2 b n)) = fun q : Fin 4096 => y (ix3 b n q) :=
    funext fun q => congrArg y (funext fun a => Fin.ext (by
      match a with | ⟨0, _⟩ => rfl | ⟨1, _⟩ => rfl | ⟨2, _⟩ => rfl))
  rw [hf]
  rfl

/-- The minimum over the middle axis at (b, q): the fold of `min` from the initial value over n of the table at (b, n, q). -/
theorem v16_fold (X Y : (⟨S16x4096x3, .f32⟩ : BufTy).Contents (Elt Ideal)) (b : Fin 16) (q : Fin 4096) :
    val_main_v16 (F := Ideal) X Y (ix2 b q)
      = (Finset.univ : Finset (Fin 4096)).fold min (Ideal.ofBits .f32 0x7F800000#32)
          (fun n => val_main_v14 (F := Ideal) X Y (ix3 b n q)) := by
  unfold val_main_v16
  generalize val_main_v14 (F := Ideal) X Y = y
  have hR : S16x4096x4096.Reduces [1] S16x4096 := by decide
  have e := Host.reduce_eq_fold_single (α := Ideal .f32) (FloatOps.minimumf (F := Ideal) (φ := .f32)) (y : FVec Ideal S16x4096x4096 .f32)
    (val_main_cst_4 (F := Ideal)) reducesTo_S16x4096x4096_S16x4096_d1 hR h_S_ (ix2 b q)
  refine e.trans ?_
  -- (b, q) with n put back on the middle axis is (b, n, q)
  have hf : (y ∘ hR.lift (ix2 b q)) = fun n : Fin 4096 => y (ix3 b n q) :=
    funext fun n => congrArg y (funext fun a => Fin.ext (by
      match a with | ⟨0, _⟩ => rfl | ⟨1, _⟩ => rfl | ⟨2, _⟩ => rfl))
  rw [hf]
  rfl

/-! ## The two minima -/

/-- On clouds of real numbers the reference's minimum over the points of Y, at point n of X in batch b, is the
    specification's row minimum: the infimum over q of the clamped distances is the clamp of the infimum. -/
theorem v15_eq (X Y : (⟨S16x4096x3, .f32⟩ : BufTy).Contents (Elt Ideal)) (hX : Chamfer.Finite X) (hY : Chamfer.Finite Y) :
    val_main_v15 (F := Ideal) X Y = fun i => Chamfer.rowMin X Y (i 0).val (i 1).val := by
  funext i
  obtain ⟨b, n, rfl⟩ : ∃ (b : Fin 16) (n : Fin 4096), i = ix2 b n := ⟨i 0, i 1, eq_ix2 i⟩
  show _ = Chamfer.rowMin X Y b.val n.val
  rw [v15_fold, Chamfer.ofBits_inf, Chamfer.fold_min_top, Chamfer.rowMin_eq hX hY, Chamfer.inf_range_eq_univ]
  exact Finset.inf_congr rfl fun q _ => v14_entry X Y b n q

/-- On clouds of real numbers the reference's minimum over the points of X, at point q of Y in batch b, is the
    specification's column minimum. -/
theorem v16_eq (X Y : (⟨S16x4096x3, .f32⟩ : BufTy).Contents (Elt Ideal)) (hX : Chamfer.Finite X) (hY : Chamfer.Finite Y) :
    val_main_v16 (F := Ideal) X Y = fun i => Chamfer.colMin X Y (i 0).val (i 1).val := by
  funext i
  obtain ⟨b, q, rfl⟩ : ∃ (b : Fin 16) (q : Fin 4096), i = ix2 b q := ⟨i 0, i 1, eq_ix2 i⟩
  show _ = Chamfer.colMin X Y b.val q.val
  rw [v16_fold, Chamfer.ofBits_inf, Chamfer.fold_min_top, Chamfer.colMin_eq hX hY, Chamfer.inf_range_eq_univ]
  exact Finset.inf_congr rfl fun n _ => v14_entry X Y b n q

end Cert.ReferenceIdeal.RefValue

end
-- ==== Proof.FiniteInputs.lean ====
/-
  The precondition gives clouds of real numbers.

  The precondition states, for each of the two clouds, that every entry x satisfies |x| < +∞ (an `and` over all
  entries, from the constant true, of the comparison), and takes the `and` of the two statements. An `and` that is
  true had both operands true; an `and` over all entries that is true had every entry true; and on the extended reals,
  where |x| is max x (−x), the absolute values of −∞ and +∞ are +∞, so |x| < +∞ leaves the real numbers.
-/
import proofs.«172423_j83425444758259_2_alg».proof.Pre_finite_inputs
import proofs.«172423_j83425444758259_2_alg».proof.Proof.Gen.Pre_finite_inputs
import proofs.«172423_j83425444758259_2_alg».proof.Proof.ChamferSpec
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Fin

open Idealize.ShloMosaic Idealize.ShloMosaic.ValueIdx

/-- The shape with no axes has one index. -/
instance : Subsingleton Cert.Pre_finite_inputs.S_.Idx := ⟨fun _ _ => funext fun d => d.elim0⟩

/-- An extended real whose absolute value max x (−x) is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The comparison |x| < +∞ coming out true says that x is a real number. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [Ideal.cmpf_def, Ideal.hostAbsf_def, Ideal.absf_def, Chamfer.ofBits_inf] at h
  unfold Ideal.cmp at h
  refine real_of_abs_lt_top x ?_
  by_contra hn
  simp [hn] at h

theorem finite_of_pre (X Y : Chamfer.Pts.Idx → EReal) (h : Cert.Pre_finite_inputs.fn (F := Ideal) X Y = fun _ => 1#1) :
    Chamfer.Finite X ∧ Chamfer.Finite Y := by
  have h0 := congrFun h ix0
  dsimp only [Cert.Pre_finite_inputs.fn] at h0
  obtain ⟨hX, hY⟩ := IntOp.andi_eq_one.1 h0
  refine ⟨fun i => ?_, fun i => ?_⟩
  · have hi := Host.reduce_andi_all _ _ _ _ _ hX i
    rw [cmpf_apply, broadcastInDim_apply _ _ _ i ix0 (fun a => a.elim0)] at hi
    exact real_of_cmp (X i) hi
  · have hi := Host.reduce_andi_all _ _ _ _ _ hY i
    rw [cmpf_apply, broadcastInDim_apply _ _ _ i ix0 (fun a => a.elim0)] at hi
    exact real_of_cmp (Y i) hi

end Cert.Pre_finite_inputs.Fin

end
-- ==== Proof.BlocksToArrays.lean ====
/-
  From the blocks a grid point sees to the whole arrays.

  The grid has 16 · 4 · 4 = 256 points; point t has batch t / 16, row tile (t / 4) mod 4 and column tile t mod 4. The
  window of the first cloud at t is the 1024 points of the row tile of batch t / 16, that of the second cloud the 1024
  points of the column tile; the first result's window is the 1024 entries of the row tile of batch t / 16 and is
  written back at the last column tile (t mod 4 = 3), the second result's window is all 4096 entries of batch t / 16
  and is written back at the last row and column tile (t mod 16 = 15). A block's coordinate on an axis is always
  (block index) · (block extent) + (coordinate inside the block); the block indices are decided once over the grid.
  Every entry (b, 0, n) of a result lies in the block of exactly the writing point one computes from (b, n), so a result
  array whose written-back blocks are all blocks of one function G of the index ends equal to G.
-/
import proofs.«172423_j83425444758259_2_alg».proof.Proof.Gen.KernelIdeal.Frame
import Idealize.ShloMosaic.Lib.Pipeline.Value
import Idealize.ShloMosaic.Lib.ValueIdx

set_option maxRecDepth 16384

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The coordinates of a grid point -/

/-- There are 256 grid points. -/
theorem lt_N (t : Fin cfg0.N) : t.val < 256 := lt_of_lt_of_eq t.isLt (show cfg0.N = 256 from N_0)

/-- The batch of point t: t / 16. -/
abbrev batch (t : Fin cfg0.N) : Fin 16 := ⟨t.val / 16, by have := lt_N t; omega⟩
/-- Row r of point t's row tile, as a row of the cloud: 1024 · ((t / 4) mod 4) + r. -/
abbrev rowOf (t : Fin cfg0.N) (r : Fin 1024) : Fin 4096 := ⟨1024 * ((t.val / 4) % 4) + r.val, by have := r.isLt; omega⟩
/-- Row s of point t's column tile, as a row of the cloud: 1024 · (t mod 4) + s. -/
abbrev colOf (t : Fin cfg0.N) (s : Fin 1024) : Fin 4096 := ⟨1024 * (t.val % 4) + s.val, by have := s.isLt; omega⟩

/-- The block indices of the four windows at point t, decided over the grid: (t / 16, (t / 4) mod 4, 0) for the first
    cloud, (t / 16, t mod 4, 0) for the second, (t / 16, 0, (t / 4) mod 4) for the first result, (t / 16, 0, 0) for the
    second. -/
theorem idx_facts : ∀ t : Fin cfg0.N,
    win0_0.index t (0 : Fin 3) = t.val / 16 ∧ win0_0.index t (1 : Fin 3) = (t.val / 4) % 4 ∧ win0_0.index t (2 : Fin 3) = 0
    ∧ win0_1.index t (0 : Fin 3) = t.val / 16 ∧ win0_1.index t (1 : Fin 3) = t.val % 4 ∧ win0_1.index t (2 : Fin 3) = 0
    ∧ win0_2.index t (0 : Fin 3) = t.val / 16 ∧ win0_2.index t (1 : Fin 3) = 0 ∧ win0_2.index t (2 : Fin 3) = (t.val / 4) % 4
    ∧ win0_3.index t (0 : Fin 3) = t.val / 16 ∧ win0_3.index t (1 : Fin 3) = 0 ∧ win0_3.index t (2 : Fin 3) = 0 :=
  (by decide +kernel : ∀ t : Fin grid0.N, _)

/-! ## The input blocks -/

/-- Entry (0, r, k) of the first cloud's block at t is entry (t / 16, 1024 · ((t / 4) mod 4) + r, k) of the cloud. -/
theorem iblk0_apply (c : Dev nD) (t : Fin cfg0.N) (r : Fin 1024) (k : Fin 3) :
    iblk m c 0 t (ix3 (0 : Fin 1) r k) = V m c main_arg0 (ix3 (batch t) (rowOf t r) k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t 0 * 1 + 1 * (0 : Fin 1).val = t.val / 16; rw [e0]; simp
  | ⟨1, _⟩ => show win0_0.index t 1 * 1024 + 1 * r.val = 1024 * ((t.val / 4) % 4) + r.val; rw [e1]; omega
  | ⟨2, _⟩ => show win0_0.index t 2 * 3 + 1 * k.val = k.val; rw [e2]; omega

/-- Entry (0, s, k) of the second cloud's block at t is entry (t / 16, 1024 · (t mod 4) + s, k) of the cloud. -/
theorem iblk1_apply (c : Dev nD) (t : Fin cfg0.N) (s : Fin 1024) (k : Fin 3) :
    iblk m c 1 t (ix3 (0 : Fin 1) s k) = V m c main_arg1 (ix3 (batch t) (colOf t s) k) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t 0 * 1 + 1 * (0 : Fin 1).val = t.val / 16; rw [e0]; simp
  | ⟨1, _⟩ => show win0_1.index t 1 * 1024 + 1 * s.val = 1024 * (t.val % 4) + s.val; rw [e1]; omega
  | ⟨2, _⟩ => show win0_1.index t 2 * 3 + 1 * k.val = k.val; rw [e2]; omega

/-! ## The first result: one row tile of one batch per writing point -/

/-- What a writing point t (t mod 4 = 3) writes back is block t of G, when the block it holds is G on the row tile. -/
theorem flushed2_eq (c : Dev nD) (G : S16x1x4096.Idx → Elt F .f32)
    (h : ∀ t : Fin cfg0.N, t.val % 4 = 3 → ∀ r : Fin 1024,
      (outsAt0 m c t.val t.isLt).1 (ix3 (0 : Fin 1) (0 : Fin 1) r) = G (ix3 (batch t) (0 : Fin 1) (rowOf t r)))
    (t : Fin cfg0.N) (hf : (cfg0.win 2).flush t = true) :
    (dats m 0 c).flushed 2 t = ((cfg0.win 2).blk t).view.read (Elt F) G := by
  have h3 : t.val % 4 = 3 := (flush0_2 t).mp hf
  obtain ⟨-, -, -, -, -, -, e0, e1, e2, -⟩ := idx_facts t
  show (cfg0.win 2).cut (grid0.coords t) ((dats m 0 c).after 2 t) = _
  rw [after0_2]
  funext j
  rw [View.read_apply]
  have hj0 : (j 0).val < 1 := (j 0).isLt
  have hj1 : (j 1).val < 1 := (j 1).isLt
  -- an index of the block is (0, 0, r)
  have hj : j = ix3 (0 : Fin 1) (0 : Fin 1) (j 2) := by
    funext a
    match a with
    | ⟨0, _⟩ => exact Fin.ext (by show (j 0).val = 0; omega)
    | ⟨1, _⟩ => exact Fin.ext (by show (j 1).val = 0; omega)
    | ⟨2, _⟩ => rfl
  refine (congrArg (outsAt0 m c t.val t.isLt).1 hj).trans ((h t h3 (j 2)).trans (congrArg G ?_))
  funext a
  apply Fin.ext
  match a with
  | ⟨0, _⟩ => show t.val / 16 = win0_2.index t 0 * 1 + 1 * (j 0).val; rw [e0]; omega
  | ⟨1, _⟩ => show 0 = win0_2.index t 1 * 1 + 1 * (j 1).val; rw [e1]; omega
  | ⟨2, _⟩ => show 1024 * ((t.val / 4) % 4) + (j 2).val = win0_2.index t 2 * 1024 + 1 * (j 2).val; rw [e2]; omega

/-- An index of the first result is in point t's block iff each coordinate is in the block's range on its axis. -/
theorem mem_blk2 (t : Fin cfg0.N) (i : S16x1x4096.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_call0_call0_v0_0).slice (win0_2.rect t)).set ↔ _
  rw [View.set_slice_whole, Rect.mem_set_unit]
  exact Iff.rfl

/-- The first result ends equal to G: entry (b, 0, n) is in the block of the writing point 16·b + 4·(n / 1024) + 3. -/
theorem final2 (c : Dev nD) (G : S16x1x4096.Idx → Elt F .f32)
    (h : ∀ t : Fin cfg0.N, t.val % 4 = 3 → ∀ r : Fin 1024,
      (outsAt0 m c t.val t.isLt).1 (ix3 (0 : Fin 1) (0 : Fin 1) r) = G (ix3 (batch t) (0 : Fin 1) (rowOf t r))) :
    (dats m 0 c).arrAt 2 cfg0.N = G := by
  refine (dats m 0 c).arrAt_eq_of_cover 2 G (flushed2_eq m c G h) fun i => ?_
  have hi0 : (i 0).val < 16 := (i 0).isLt
  have hi1 : (i 1).val < 1 := (i 1).isLt
  have hi2 : (i 2).val < 4096 := (i 2).isLt
  have hN : cfg0.N = 256 := N_0
  let t : Fin cfg0.N := ⟨16 * (i 0).val + 4 * ((i 2).val / 1024) + 3, by rw [hN]; omega⟩
  have ht : t.val = 16 * (i 0).val + 4 * ((i 2).val / 1024) + 3 := rfl
  obtain ⟨-, -, -, -, -, -, e0, e1, e2, -⟩ := idx_facts t
  refine ⟨t, (flush0_2 t).mpr (by rw [ht]; omega), ?_⟩
  rw [mem_blk2]
  intro a
  match a with
  | ⟨0, _⟩ => show win0_2.index t 0 * 1 ≤ (i 0).val ∧ (i 0).val < win0_2.index t 0 * 1 + 1; rw [e0, ht]; omega
  | ⟨1, _⟩ => show win0_2.index t 1 * 1 ≤ (i 1).val ∧ (i 1).val < win0_2.index t 1 * 1 + 1; rw [e1]; omega
  | ⟨2, _⟩ => show win0_2.index t 2 * 1024 ≤ (i 2).val ∧ (i 2).val < win0_2.index t 2 * 1024 + 1024; rw [e2, ht]; omega

/-! ## The second result: one whole batch per writing point -/

/-- What a writing point t (t mod 16 = 15) writes back is block t of G, when the block it holds is G on the batch. -/
theorem flushed3_eq (c : Dev nD) (G : S16x1x4096.Idx → Elt F .f32)
    (h : ∀ t : Fin cfg0.N, t.val % 16 = 15 → ∀ q : Fin 4096,
      (outsAt0 m c t.val t.isLt).2.1 (ix3 (0 : Fin 1) (0 : Fin 1) q) = G (ix3 (batch t) (0 : Fin 1) q))
    (t : Fin cfg0.N) (hf : (cfg0.win 3).flush t = true) :
    (dats m 0 c).flushed 3 t = ((cfg0.win 3).blk t).view.read (Elt F) G := by
  have h15 : t.val % 16 = 15 := (flush0_3 t).mp hf
  obtain ⟨-, -, -, -, -, -, -, -, -, e0, e1, e2⟩ := idx_facts t
  show (cfg0.win 3).cut (grid0.coords t) ((dats m 0 c).after 3 t) = _
  rw [after0_3]
  funext j
  rw [View.read_apply]
  have hj0 : (j 0).val < 1 := (j 0).isLt
  have hj1 : (j 1).val < 1 := (j 1).isLt
  -- an index of the block is (0, 0, q)
  have hj : j = ix3 (0 : Fin 1) (0 : Fin 1) (j 2) := by
    funext a
    match a with
    | ⟨0, _⟩ => exact Fin.ext (by show (j 0).val = 0; omega)
    | ⟨1, _⟩ => exact Fin.ext (by show (j 1).val = 0; omega)
    | ⟨2, _⟩ => rfl
  refine (congrArg (outsAt0 m c t.val t.isLt).2.1 hj).trans ((h t h15 (j 2)).trans (congrArg G ?_))
  funext a
  apply Fin.ext
  match a with
  | ⟨0, _⟩ => show t.val / 16 = win0_3.index t 0 * 1 + 1 * (j 0).val; rw [e0]; omega
  | ⟨1, _⟩ => show 0 = win0_3.index t 1 * 1 + 1 * (j 1).val; rw [e1]; omega
  | ⟨2, _⟩ => show (j 2).val = win0_3.index t 2 * 4096 + 1 * (j 2).val; rw [e2]; omega

/-- An index of the second result is in point t's block iff each coordinate is in the block's range on its axis. -/
theorem mem_blk3 (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_call0_call0_v0_1).slice (win0_3.rect t)).set ↔ _
  rw [View.set_slice_whole, Rect.mem_set_unit]
  exact Iff.rfl

/-- The second result ends equal to G: entry (b, 0, q) is in the block of the writing point 16·b + 15. -/
theorem final3 (c : Dev nD) (G : S16x1x4096.Idx → Elt F .f32)
    (h : ∀ t : Fin cfg0.N, t.val % 16 = 15 → ∀ q : Fin 4096,
      (outsAt0 m c t.val t.isLt).2.1 (ix3 (0 : Fin 1) (0 : Fin 1) q) = G (ix3 (batch t) (0 : Fin 1) q)) :
    (dats m 0 c).arrAt 3 cfg0.N = G := by
  refine (dats m 0 c).arrAt_eq_of_cover 3 G (flushed3_eq m c G h) fun i => ?_
  have hi0 : (i 0).val < 16 := (i 0).isLt
  have hi1 : (i 1).val < 1 := (i 1).isLt
  have hi2 : (i 2).val < 4096 := (i 2).isLt
  have hN : cfg0.N = 256 := N_0
  let t : Fin cfg0.N := ⟨16 * (i 0).val + 15, by rw [hN]; omega⟩
  have ht : t.val = 16 * (i 0).val + 15 := rfl
  obtain ⟨-, -, -, -, -, -, -, -, -, e0, e1, e2⟩ := idx_facts t
  refine ⟨t, (flush0_3 t).mpr (by rw [ht]; omega), ?_⟩
  rw [mem_blk3]
  intro a
  match a with
  | ⟨0, _⟩ => show win0_3.index t 0 * 1 ≤ (i 0).val ∧ (i 0).val < win0_3.index t 0 * 1 + 1; rw [e0, ht]; omega
  | ⟨1, _⟩ => show win0_3.index t 1 * 1 ≤ (i 1).val ∧ (i 1).val < win0_3.index t 1 * 1 + 1; rw [e1]; omega
  | ⟨2, _⟩ => show win0_3.index t 2 * 4096 ≤ (i 2).val ∧ (i 2).val < win0_3.index t 2 * 4096 + 4096; rw [e2]; omega

end Cert.KernelIdeal.Arrays

end
-- ==== Proof.MeanTail.lean ====
/-
  The common ending of the two programs: from the two tables of minima to the loss.

  Both programs end with the same operations: each table of 16 × 4096 minima is summed over its 4096 entries per batch
  (from 0) and divided by 4096, the two vectors of 16 means are added, the 16 sums are summed (from 0) and divided by
  16. That ending is named here once, as a function of the two tables, spelt with the operations the programs print;
  each program's result is that function of its own two tables of minima.
-/
import proofs.«172423_j83425444758259_2_alg».proof.Proof.Gen.ReferenceIdeal.Read
import proofs.«172423_j83425444758259_2_alg».proof.Proof.Gen.KernelIdeal.Launch
import proofs.«172423_j83425444758259_2_alg».proof.Proof.ChamferSpec
import Idealize.ShloMosaic.Lib.StableHlo.Run
import Idealize.ShloMosaic.Lib.Pipeline.Value
import Idealize.ShloMosaic.Lib.ValueIdx

noncomputable section

namespace Chamfer.Tail

open Idealize.ShloMosaic Idealize.ShloMosaic.TcCoe Idealize.SL.Sem Idealize.ShloMosaic.ValueIdx

abbrev S16x4096 : Shape := ⟨2, ![16, 4096]⟩
abbrev S16x1x4096 : Shape := ⟨3, ![16, 1, 4096]⟩
abbrev S16 : Shape := ⟨1, ![16]⟩
abbrev S_ : Shape := ⟨0, ![]⟩

/-- The mean over the 4096 entries of each batch: the sum from 0 over the second axis, divided by 4096. -/
def batchMean (r : FVec Ideal S16x4096 .f32) : FVec Ideal S16 .f32 :=
  Host.divf (F := Ideal)
    (Host.reduceAdd (F := Ideal) r (constant (F := Ideal) S_ .f32 0x00000000#32) Cert.ReferenceIdeal.Gen.reducesTo_S16x4096_S16_d1 Cert.ReferenceIdeal.Gen.h_S_)
    (broadcastInDim S16 ![] Cert.ReferenceIdeal.Gen.bcast_S_S16 (constant (F := Ideal) S_ .f32 0x45800000#32))

/-- The ending: the two tables' batch means added, summed from 0 over the batches, divided by 16. -/
def tail (r c : (⟨2, ![16, 4096]⟩ : Shape).Idx → EReal) : (⟨0, ![]⟩ : Shape).Idx → EReal :=
  Host.divf (F := Ideal) (φ := .f32)
    (Host.reduceAdd (F := Ideal) (addf (F := Ideal) (batchMean r) (batchMean c)) (constant (F := Ideal) S_ .f32 0x00000000#32)
      Cert.ReferenceIdeal.Gen.reducesTo_S16_S_d0 Cert.ReferenceIdeal.Gen.h_S_)
    (constant (F := Ideal) S_ .f32 0x41800000#32)

/-- The reference's result is the ending of its two tables of minima. -/
theorem ref_eq (X Y : (⟨Cert.ReferenceIdeal.S16x4096x3, .f32⟩ : BufTy).Contents (Elt Ideal)) :
    Cert.ReferenceIdeal.Read.val_main_v25 (F := Ideal) X Y
      = tail (Cert.ReferenceIdeal.Read.val_main_v15 (F := Ideal) X Y) (Cert.ReferenceIdeal.Read.val_main_v16 (F := Ideal) X Y) := rfl

/-- The kernel program's result after its ending operations, for any contents W of its buffers at the start of the ending:
    the ending of the two result arrays, each read with its unit middle axis dropped. -/
theorem kernel_eq (W : Valuation Cert.KernelIdeal.τ Cert.KernelIdeal.sig (Elt Ideal)) :
    StableHlo.after (Cert.KernelIdeal.Gen.hostOps1 (F := Ideal)) W (Proc.devRef .tc Cert.KernelIdeal.main_v0)
      = tail (shapeCast S16x4096 (W (Proc.devRef .tc Cert.KernelIdeal.main_call0_call0_v0_0)) Cert.KernelIdeal.Gen.shapeCasts_S16x1x4096_S16x4096)
          (shapeCast S16x4096 (W (Proc.devRef .tc Cert.KernelIdeal.main_call0_call0_v0_1)) Cert.KernelIdeal.Gen.shapeCasts_S16x1x4096_S16x4096) := by
  after_results
  rfl

/-- A 16 × 1 × 4096 array read as 16 × 4096: entry (b, n) is entry (b, 0, n), both being entry 4096·b + n in row-major order. -/
theorem dropMiddle_apply {α : Type} (A : S16x1x4096.Idx → α) (h : S16x1x4096.ShapeCasts S16x4096) (b : Fin 16) (n : Fin 4096) :
    shapeCast S16x4096 A h (ix2 b n) = A (ix3 b (0 : Fin 1) n) := by
  refine shapeCast_apply A h (ix2 b n) (ix3 b (0 : Fin 1) n) ?_
  rw [Shape.rowMajor_val_three, Shape.rowMajor_val_two]
  show (b.val * 1 + 0) * 4096 + n.val = b.val * 4096 + n.val
  omega

end Chamfer.Tail

end
-- ==== Proof.TileValue.lean ====
/-
  One tile of the squared-distance table, read entry by entry on the extended reals.

  From a block x0 of 1024 points of the first cloud and a block x1 of 1024 points of the second, entry (r, s) of
  the tile is |x0 r|² + |x1 s|² + ⟨x0 r, −2·x1 s⟩: the two sums of squares are sums over the three coordinates, spread
  along the rows and along the columns, and the inner product is a contraction of the last axes. The tile's
  minimum along a row and along a column, the running minima they are folded into, and the final clamp below at 0
  are read at an index here.
-/
import proofs.«172423_j83425444758259_2_alg».proof.Proof.Gen.KernelIdeal.Skeleton
import proofs.«172423_j83425444758259_2_alg».proof.Proof.ChamferSpec
import Idealize.ShloMosaic.Lib.Pipeline.Value
import Idealize.ShloMosaic.Lib.ValueIdx
import Idealize.ShloMosaic.PureOps.Ideal.Laws
import Idealize.ShloMosaic.PureOps.Reduce

noncomputable section

namespace Cert.KernelIdeal.TileValue

open Idealize.ShloMosaic Idealize.ShloMosaic.ValueIdx Cert.KernelIdeal Cert.KernelIdeal.Gen

/-- Entry (r, s) of the tile built from two blocks of 1024 points. -/
def tile (x0 x1 : S1x1024x3.Idx → EReal) (r s : Fin 1024) : EReal :=
  (∑ k : Fin 3, x0 (ix3 (0 : Fin 1) r k) * x0 (ix3 (0 : Fin 1) r k)
      + ∑ k : Fin 3, x1 (ix3 (0 : Fin 1) s k) * x1 (ix3 (0 : Fin 1) s k))
    + ∑ k : Fin 3, x0 (ix3 (0 : Fin 1) r k) * (((-2 : ℝ) : EReal) * x1 (ix3 (0 : Fin 1) s k))

/-- The sum of squares over the three coordinates of point r of a block. -/
theorem sumsq_apply (v : FVec Ideal S1x1024x3 .f32) (h : S1x1024x3.Reduces [2] S1x1024) (hφ : FKind.Formats .f32)
    (hacc : (0x00000000#32 : BitVec 32) = FKind.add.neutral .f32 hφ) (r : Fin 1024) :
    multiReduction .add [2] S1x1024 (mulf v v) 0x00000000#32 h hφ hacc (ix2 (0 : Fin 1) r)
      = ∑ k : Fin 3, v (ix3 (0 : Fin 1) r k) * v (ix3 (0 : Fin 1) r k) :=
  (Ideal.multiReduction_add_single (mulf v v) _ h hφ hacc (ix2 (0 : Fin 1) r)).trans
    (Finset.sum_congr rfl fun k _ => by
      have e : h.lift (ix2 (0 : Fin 1) r) k = ix3 (0 : Fin 1) r k :=
        funext fun a => Fin.ext (by match a with | ⟨0, _⟩ => rfl | ⟨1, _⟩ => rfl | ⟨2, _⟩ => rfl)
      rw [e]; rfl)

/-- A vector over the rows, given a unit last axis and spread along the columns, reads its row's entry. -/
theorem rows_spread (u : FVec Ideal S1x1024 .f32) (hc : S1x1024.ShapeCasts S1x1024x1)
    (hb : S1x1024x1.Broadcasts S1x1024x1024) (r s : Fin 1024) :
    broadcastTo S1x1024x1024 (shapeCast S1x1024x1 u hc) hb (ix3 (0 : Fin 1) r s) = u (ix2 (0 : Fin 1) r) :=
  (broadcastTo_apply (shapeCast S1x1024x1 u hc) hb (ix3 (0 : Fin 1) r s) (ix3 (0 : Fin 1) r (0 : Fin 1))
      (fun a => by match a with | ⟨0, _⟩ => rfl | ⟨1, _⟩ => rfl | ⟨2, _⟩ => rfl)).trans
    (shapeCast_apply u hc (ix3 (0 : Fin 1) r (0 : Fin 1)) (ix2 (0 : Fin 1) r) (by
      rw [Shape.rowMajor_val_two, Shape.rowMajor_val_three]
      show 0 * 1024 + r.val = (0 * 1024 + r.val) * 1 + 0
      omega))

/-- A vector over the columns, given a unit middle axis and spread along the rows, reads its column's entry. -/
theorem cols_spread (u : FVec Ideal S1x1024 .f32) (hc : S1x1024.ShapeCasts S1x1x1024)
    (hb : S1x1x1024.Broadcasts S1x1024x1024) (r s : Fin 1024) :
    broadcastTo S1x1024x1024 (shapeCast S1x1x1024 u hc) hb (ix3 (0 : Fin 1) r s) = u (ix2 (0 : Fin 1) s) :=
  (broadcastTo_apply (shapeCast S1x1x1024 u hc) hb (ix3 (0 : Fin 1) r s) (ix3 (0 : Fin 1) (0 : Fin 1) s)
      (fun a => by match a with | ⟨0, _⟩ => rfl | ⟨1, _⟩ => rfl | ⟨2, _⟩ => rfl)).trans
    (shapeCast_apply u hc (ix3 (0 : Fin 1) (0 : Fin 1) s) (ix2 (0 : Fin 1) s) (by
      rw [Shape.rowMajor_val_two, Shape.rowMajor_val_three]
      show 0 * 1024 + s.val = (0 * 1 + 0) * 1024 + s.val
      omega))

/-- A vector of 1024 entries given a unit middle axis reads the same entry. -/
theorem unit_mid (u : FVec Ideal S1x1024 .f32) (hc : S1x1024.ShapeCasts S1x1x1024) (s : Fin 1024) :
    shapeCast S1x1x1024 u hc (ix3 (0 : Fin 1) (0 : Fin 1) s) = u (ix2 (0 : Fin 1) s) :=
  shapeCast_apply u hc (ix3 (0 : Fin 1) (0 : Fin 1) s) (ix2 (0 : Fin 1) s) (by
    rw [Shape.rowMajor_val_two, Shape.rowMajor_val_three]
    show 0 * 1024 + s.val = (0 * 1 + 0) * 1024 + s.val
    omega)

/-- The operand indices of the contraction at an output index: batch and row (column) from the output, the
    contracted coordinate from the contraction index. -/
theorem lhs_0 (i : S1x1024x1024.Idx) (q : dot_S1x1024x3_S1x1024x3_S1x1024x1024_2_2_1_1_0_0.contr.Idx) : (dot_S1x1024x3_S1x1024x3_S1x1024x1024_2_2_1_1_0_0.lhsIdx i q 0).val = (i 0).val := by
  unfold DotDims.lhsIdx
  rw [dif_pos (show (0 : Fin S1x1024x3.rank) ∈ dot_S1x1024x3_S1x1024x3_S1x1024x1024_2_2_1_1_0_0.lhsBatch by decide)]
  rfl
theorem lhs_1 (i : S1x1024x1024.Idx) (q : dot_S1x1024x3_S1x1024x3_S1x1024x1024_2_2_1_1_0_0.contr.Idx) : (dot_S1x1024x3_S1x1024x3_S1x1024x1024_2_2_1_1_0_0.lhsIdx i q 1).val = (i 1).val := by
  unfold DotDims.lhsIdx
  rw [dif_neg (show ¬(1 : Fin S1x1024x3.rank) ∈ dot_S1x1024x3_S1x1024x3_S1x1024x1024_2_2_1_1_0_0.lhsBatch by decide),
    dif_pos (show (1 : Fin S1x1024x3.rank) ∈ dot_S1x1024x3_S1x1024x3_S1x1024x1024_2_2_1_1_0_0.lhsNonContracting by decide)]
  rfl
theorem lhs_2 (i : S1x1024x1024.Idx) (q : dot_S1x1024x3_S1x1024x3_S1x1024x1024_2_2_1_1_0_0.contr.Idx) : (dot_S1x1024x3_S1x1024x3_S1x1024x1024_2_2_1_1_0_0.lhsIdx i q 2).val = (q ⟨0, by decide⟩).val :=
  dot_S1x1024x3_S1x1024x3_S1x1024x1024_2_2_1_1_0_0.lhsIdx_val_of_single rfl i q
theorem rhs_0 (i : S1x1024x1024.Idx) (q : dot_S1x1024x3_S1x1024x3_S1x1024x1024_2_2_1_1_0_0.contr.Idx) : (dot_S1x1024x3_S1x1024x3_S1x1024x1024_2_2_1_1_0_0.rhsIdx i q 0).val = (i 0).val := by
  unfold DotDims.rhsIdx
  rw [dif_pos (show (0 : Fin S1x1024x3.rank) ∈ dot_S1x1024x3_S1x1024x3_S1x1024x1024_2_2_1_1_0_0.rhsBatch by decide)]
  rfl
theorem rhs_1 (i : S1x1024x1024.Idx) (q : dot_S1x1024x3_S1x1024x3_S1x1024x1024_2_2_1_1_0_0.contr.Idx) : (dot_S1x1024x3_S1x1024x3_S1x1024x1024_2_2_1_1_0_0.rhsIdx i q 1).val = (i 2).val := by
  unfold DotDims.rhsIdx
  rw [dif_neg (show ¬(1 : Fin S1x1024x3.rank) ∈ dot_S1x1024x3_S1x1024x3_S1x1024x1024_2_2_1_1_0_0.rhsBatch by decide),
    dif_pos (show (1 : Fin S1x1024x3.rank) ∈ dot_S1x1024x3_S1x1024x3_S1x1024x1024_2_2_1_1_0_0.rhsNonContracting by decide)]
  rfl
theorem rhs_2 (i : S1x1024x1024.Idx) (q : dot_S1x1024x3_S1x1024x3_S1x1024x1024_2_2_1_1_0_0.contr.Idx) : (dot_S1x1024x3_S1x1024x3_S1x1024x1024_2_2_1_1_0_0.rhsIdx i q 2).val = (q ⟨0, by decide⟩).val :=
  dot_S1x1024x3_S1x1024x3_S1x1024x1024_2_2_1_1_0_0.rhsIdx_val_of_single rfl i q

/-- The contraction of the last axes of two blocks, at (r, s): the inner product of point r and point s. -/
theorem cross_apply (x y : FVec Ideal S1x1024x3 .f32) (r s : Fin 1024) :
    matmul dot_S1x1024x3_S1x1024x3_S1x1024x1024_2_2_1_1_0_0 (some .fp32) x y (constant S1x1024x1024 .f32 0x00000000#32)
        (ix3 (0 : Fin 1) r s)
      = ∑ k : Fin 3, x (ix3 (0 : Fin 1) r k) * y (ix3 (0 : Fin 1) s k) := by
  simp only [matmul]
  rw [Ideal.matmul_constant_zero_apply,
    ← Equiv.sum_comp (contrEquiv1 dot_S1x1024x3_S1x1024x3_S1x1024x1024_2_2_1_1_0_0 3 rfl rfl).symm]
  refine Finset.sum_congr rfl fun k _ => ?_
  have hk := contrEquiv1_symm_val dot_S1x1024x3_S1x1024x3_S1x1024x1024_2_2_1_1_0_0 3 rfl rfl k
  have el : dot_S1x1024x3_S1x1024x3_S1x1024x1024_2_2_1_1_0_0.lhsIdx (ix3 (0 : Fin 1) r s)
      ((contrEquiv1 dot_S1x1024x3_S1x1024x3_S1x1024x1024_2_2_1_1_0_0 3 rfl rfl).symm k) = ix3 (0 : Fin 1) r k :=
    funext fun a => Fin.ext (by
      match a with
      | ⟨0, _⟩ => exact lhs_0 _ _
      | ⟨1, _⟩ => exact lhs_1 _ _
      | ⟨2, _⟩ => exact (lhs_2 _ _).trans hk)
  have er : dot_S1x1024x3_S1x1024x3_S1x1024x1024_2_2_1_1_0_0.rhsIdx (ix3 (0 : Fin 1) r s)
      ((contrEquiv1 dot_S1x1024x3_S1x1024x3_S1x1024x1024_2_2_1_1_0_0 3 rfl rfl).symm k) = ix3 (0 : Fin 1) s k :=
    funext fun a => Fin.ext (by
      match a with
      | ⟨0, _⟩ => exact rhs_0 _ _
      | ⟨1, _⟩ => exact rhs_1 _ _
      | ⟨2, _⟩ => exact (rhs_2 _ _).trans hk)
  rw [el, er]

/-- The tile the body computes from its two blocks, entry by entry. -/
theorem pay6_apply (x0 x1 : Vec Ideal S1x1024x3 .f32) (r s : Fin 1024) :
    k0_pay6 (F := Ideal) x0 x1 (ix3 (0 : Fin 1) r s) = tile x0 x1 r s := by
  unfold k0_pay6 tile
  try dsimp only
  rw [addf_apply, addf_apply]
  refine congrArg₂ (· + ·) (congrArg₂ (· + ·) ?_ ?_) ?_
  · exact (rows_spread _ _ _ r s).trans (sumsq_apply x0 _ _ _ r)
  · exact (cols_spread _ _ _ r s).trans (sumsq_apply x1 _ _ _ s)
  · refine (cross_apply x0 _ r s).trans (Finset.sum_congr rfl fun k _ => ?_)
    rw [mulf_apply, broadcast_apply]
    show x0 _ * (Ideal.ofBits .f32 0xC0000000#32 * x1 _) = _
    rw [Chamfer.ofBits_neg_two]

/-- The minimum of a tile along row r, from +∞. -/
theorem rowmin_apply (v : FVec Ideal S1x1024x1024 .f32) (h : S1x1024x1024.Reduces [2] S1x1024) (hφ : FKind.Formats .f32)
    (hacc : (0x7F800000#32 : BitVec 32) = FKind.minimumf.neutral .f32 hφ) (r : Fin 1024) :
    multiReduction .minimumf [2] S1x1024 v 0x7F800000#32 h hφ hacc (ix2 (0 : Fin 1) r)
      = (Finset.univ : Finset (Fin 1024)).inf fun s => v (ix3 (0 : Fin 1) r s) := by
  refine (multiReduction_minimumf_eq_fold v _ h hφ hacc _).trans ((h.fold_filter_drop_single _ _ v _).trans ?_)
  show Finset.fold min (Ideal.ofBits .f32 0x7F800000#32) _ _ = _
  rw [Chamfer.ofBits_inf, Chamfer.fold_min_top]
  exact Finset.inf_congr rfl fun k _ => congrArg v
    (funext fun a => Fin.ext (by match a with | ⟨0, _⟩ => rfl | ⟨1, _⟩ => rfl | ⟨2, _⟩ => rfl))

/-- The minimum of a tile along column s, from +∞. -/
theorem colmin_apply (v : FVec Ideal S1x1024x1024 .f32) (h : S1x1024x1024.Reduces [1] S1x1024) (hφ : FKind.Formats .f32)
    (hacc : (0x7F800000#32 : BitVec 32) = FKind.minimumf.neutral .f32 hφ) (s : Fin 1024) :
    multiReduction .minimumf [1] S1x1024 v 0x7F800000#32 h hφ hacc (ix2 (0 : Fin 1) s)
      = (Finset.univ : Finset (Fin 1024)).inf fun r => v (ix3 (0 : Fin 1) r s) := by
  refine (multiReduction_minimumf_eq_fold v _ h hφ hacc _).trans ((h.fold_filter_drop_single _ _ v _).trans ?_)
  show Finset.fold min (Ideal.ofBits .f32 0x7F800000#32) _ _ = _
  rw [Chamfer.ofBits_inf, Chamfer.fold_min_top]
  exact Finset.inf_congr rfl fun k _ => congrArg v
    (funext fun a => Fin.ext (by match a with | ⟨0, _⟩ => rfl | ⟨1, _⟩ => rfl | ⟨2, _⟩ => rfl))

/-- The tile's column minima. -/
theorem pay7_apply (x0 x1 : Vec Ideal S1x1024x3 .f32) (s : Fin 1024) :
    k0_pay7 (F := Ideal) x0 x1 (ix2 (0 : Fin 1) s) = (Finset.univ : Finset (Fin 1024)).inf fun r => tile x0 x1 r s := by
  unfold k0_pay7
  try dsimp only
  exact (colmin_apply _ _ _ _ s).trans (Finset.inf_congr rfl fun r _ => pay6_apply x0 x1 r s)

/-- The running row minimum after this tile: the previous one and the tile's row minimum. -/
theorem pay8_apply (x0 x1 : Vec Ideal S1x1024x3 .f32) (acc : Vec Ideal S1x1x1024 .f32) (r : Fin 1024) :
    k0_pay8 (F := Ideal) x0 x1 acc (ix3 (0 : Fin 1) (0 : Fin 1) r)
      = min (acc (ix3 (0 : Fin 1) (0 : Fin 1) r)) ((Finset.univ : Finset (Fin 1024)).inf fun s => tile x0 x1 r s) := by
  unfold k0_pay8
  try dsimp only
  rw [shapeCast_self, minimumf_apply]
  refine congrArg (min _) ?_
  exact (unit_mid _ _ r).trans ((rowmin_apply _ _ _ _ r).trans (Finset.inf_congr rfl fun s _ => pay6_apply x0 x1 r s))

/-- The running column minimum on the tile's columns after this tile. -/
theorem pay1_apply (cm : FVec Ideal S1x1024 .f32) (acc : Vec Ideal S1x1x1024 .f32) (s : Fin 1024) :
    k0_pay1 (F := Ideal) cm acc (ix3 (0 : Fin 1) (0 : Fin 1) s)
      = min (acc (ix3 (0 : Fin 1) (0 : Fin 1) s)) (cm (ix2 (0 : Fin 1) s)) := by
  unfold k0_pay1
  try dsimp only
  rw [shapeCast_self, minimumf_apply]
  exact congrArg (min _) (unit_mid _ _ s)

/-- The clamp below at 0 of 1024 entries. -/
theorem pay2_apply (v : Vec Ideal S1x1x1024 .f32) (i : S1x1x1024.Idx) : k0_pay2 (F := Ideal) v i = max (v i) 0 := by
  unfold k0_pay2
  try dsimp only
  rw [maximumf_apply, broadcast_apply]
  show max _ (Ideal.ofBits .f32 0x00000000#32) = _
  rw [Ideal.ofBits_zero_f32]

/-- The clamp below at 0 of 4096 entries. -/
theorem pay3_apply (v : Vec Ideal S1x1x4096 .f32) (i : S1x1x4096.Idx) : k0_pay3 (F := Ideal) v i = max (v i) 0 := by
  unfold k0_pay3
  try dsimp only
  rw [maximumf_apply, broadcast_apply]
  show max _ (Ideal.ofBits .f32 0x00000000#32) = _
  rw [Ideal.ofBits_zero_f32]

/-- The reset of the column accumulator: +∞ everywhere. -/
theorem pay4_apply (i : S1x1x4096.Idx) : k0_pay4 (F := Ideal) i = ⊤ := by
  unfold k0_pay4
  try dsimp only
  rw [shapeCast_self, broadcast_apply]
  exact Chamfer.ofBits_inf

/-- The reset of the row accumulator: +∞ everywhere. -/
theorem pay5_apply (i : S1x1x1024.Idx) : k0_pay5 (F := Ideal) i = ⊤ := by
  unfold k0_pay5
  try dsimp only
  rw [shapeCast_self, broadcast_apply]
  exact Chamfer.ofBits_inf

end Cert.KernelIdeal.TileValue

end
-- ==== Proof.CaseValues.lean ====
/-
  What one grid point's body leaves behind, case by case.

  Every point folds its tile's row minima into the row accumulator (1024 entries) and its tile's column minima into
  the tile's 1024 columns of the column accumulator (4096 entries); a point whose column tile is the first starts the
  row accumulator from +∞, the first point of a batch also starts the column accumulator from +∞; a point whose column
  tile is the last writes the clamped row accumulator out, and the last point of a batch the clamped column
  accumulator. The five combinations that occur are read here from the stores each leaves.
-/
import proofs.«172423_j83425444758259_2_alg».proof.Proof.Gen.KernelIdeal.Frame
import proofs.«172423_j83425444758259_2_alg».proof.Proof.TileValue
import Idealize.ShloMosaic.Lib.Pipeline.Value
import Idealize.ShloMosaic.Lib.WritesUnit
import Idealize.ShloMosaic.Lib.Tactic

set_option maxRecDepth 16384

noncomputable section

namespace Cert.KernelIdeal.CaseValues

open Idealize.ShloMosaic Idealize.ShloMosaic.TcCoe Idealize.ShloMosaic.Tactic Idealize.ShloMosaic.ValueIdx Idealize.SL.Sem
open Cert.KernelIdeal Cert.KernelIdeal.Gen Cert.KernelIdeal.TileValue

theorem hz : (![0, 0, 0] : Fin 3 → Nat) = fun _ => 0 := funext fun a => by fin_cases a <;> rfl

/-- The column accumulator's contents at the start of a batch. -/
def top4096 : Vec Ideal S1x1x4096 .f32 := fun _ => (⊤ : EReal)

/-- The offsets of the tile's columns inside the column accumulator. -/
theorem off_2 (i : grid0.Coords) : k0_off1 i 2 = 1024 * (i 2).val := congrFun (k0_off1_eq i) 2
theorem off_1 (i : grid0.Coords) : k0_off1 i 1 = 0 := congrFun (k0_off1_eq i) 1
theorem off_0 (i : grid0.Coords) : k0_off1 i 0 = 0 := congrFun (k0_off1_eq i) 0

/-- A load of the tile's columns of an accumulator reads the accumulator there. -/
theorem ld_cols (i : grid0.Coords) (A : Vec Ideal S1x1x4096 .f32) (q : Fin 4096) (s : Fin 1024)
    (hq : q.val = 1024 * (i 2).val + s.val) :
    View.ld A (Rect.unit (s := S1x1x4096) (k0_off1 i) S1x1x1024.size (k0_off1_inb i)) (ix3 (0 : Fin 1) (0 : Fin 1) s)
      = A (ix3 (0 : Fin 1) (0 : Fin 1) q) := by
  show A ((Rect.unit (s := S1x1x4096) (k0_off1 i) S1x1x1024.size (k0_off1_inb i)).emb (ix3 (0 : Fin 1) (0 : Fin 1) s)) = _
  refine congrArg A (funext fun a => Fin.ext ?_)
  match a with
  | ⟨0, _⟩ => show k0_off1 i 0 + 1 * 0 = 0; rw [off_0]
  | ⟨1, _⟩ => show k0_off1 i 1 + 1 * 0 = 0; rw [off_1]
  | ⟨2, _⟩ => show k0_off1 i 2 + 1 * s.val = q.val; rw [off_2]; omega

/-! ## Case A -/

/-- The row accumulator after the point: the tile's row minima folded into +∞. -/
theorem s0_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : cond0_0 i) (hc1 : cond0_1 i) (hc2 : ¬cond0_2 i) (hc3 : ¬cond0_3 i)
    (x0 x1 : Vec Ideal S1x1024x3 .f32)  :
    sout0_A_0 (F := Ideal) c i arg3 harg3 arg4 harg4 arg5 harg5 arg6 harg6 arg7 harg7 arg8 harg8 hc0 hc1 hc2 hc3 x0 x1  = k0_pay8 x0 x1 (k0_pay5 (F := Ideal)) := by
  unfold sout0_A_0
  rw [View.read_writes_eq_canon _ _ _ (scover0_A_0 c i arg3 harg3 arg4 harg4 arg5 harg5 arg6 harg6 arg7 harg7 arg8 harg8 hc0 hc1 hc2 hc3 x0 x1 )]
  unfold kernelRun0_A
  dsimp only
  sl_unfold_words
  rw [View.canon_cons_unit_zero (S := S1x1x1024) hz, View.readCov_unit_zero (S := S1x1x1024) _ hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- A freshly reset column accumulator, read back through any view of it: +∞. -/
theorem reset_read (v : View sig .tc .vmem S1x1x4096 .f32) (y : S1x1x4096.Idx) :
    View.read (Elt Ideal) v (v.writes (Elt Ideal) v.junk
      [(⟨Rect.unit ![0, 0, 0] S1x1x4096.size inb_S1x1x4096_S1x1x4096_0_0_0, k0_pay4 (F := Ideal)⟩ : View.Piece (Elt Ideal) S1x1x4096 .f32)]) y
      = top4096 y := by
  refine (View.read_writes_cons_unit_of_mem (Val := Elt Ideal) v v.junk inb_S1x1x4096_S1x1x4096_0_0_0 _ [] y y rfl
    (fun a => by match a with | ⟨0, _⟩ => exact (Nat.zero_add _).symm | ⟨1, _⟩ => exact (Nat.zero_add _).symm | ⟨2, _⟩ => exact (Nat.zero_add _).symm)).trans ?_
  exact pay4_apply y

/-- The column accumulator after the first point of a batch, at a column of the tile. -/
theorem s1_A_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : cond0_0 i) (hc1 : cond0_1 i) (hc2 : ¬cond0_2 i) (hc3 : ¬cond0_3 i)
    (x0 x1 : Vec Ideal S1x1024x3 .f32)  (q : Fin 4096) (s : Fin 1024) (hq : q.val = 1024 * (i 2).val + s.val) :
    sout0_A_1 (F := Ideal) c i arg3 harg3 arg4 harg4 arg5 harg5 arg6 harg6 arg7 harg7 arg8 harg8 hc0 hc1 hc2 hc3 x0 x1  (ix3 (0 : Fin 1) (0 : Fin 1) q)
      = min (top4096 (ix3 (0 : Fin 1) (0 : Fin 1) q)) (k0_pay7 x0 x1 (ix2 (0 : Fin 1) s)) := by
  unfold sout0_A_1
  unfold kernelRun0_A
  dsimp only
  sl_unfold_words
  refine (View.read_writes_cons_unit_of_mem VS0_1 VS0_1.junk _ _ _ (ix3 (0 : Fin 1) (0 : Fin 1) q)
    (ix3 (0 : Fin 1) (0 : Fin 1) s) (k0_off1_eq i)
    (fun a => by match a with | ⟨0, _⟩ => rfl | ⟨1, _⟩ => rfl | ⟨2, _⟩ => exact hq)).trans ?_
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]
  rw [pay1_apply]
  exact congrArg (min · _) ((reset_read arg8.view _).trans rfl)

/-- The column accumulator after the first point of a batch, at a column outside the tile: still +∞. -/
theorem s1_A_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : cond0_0 i) (hc1 : cond0_1 i) (hc2 : ¬cond0_2 i) (hc3 : ¬cond0_3 i)
    (x0 x1 : Vec Ideal S1x1024x3 .f32)  (q : Fin 4096) (hq : q.val < 1024 * (i 2).val ∨ 1024 * (i 2).val + 1024 ≤ q.val) :
    sout0_A_1 (F := Ideal) c i arg3 harg3 arg4 harg4 arg5 harg5 arg6 harg6 arg7 harg7 arg8 harg8 hc0 hc1 hc2 hc3 x0 x1  (ix3 (0 : Fin 1) (0 : Fin 1) q) = top4096 (ix3 (0 : Fin 1) (0 : Fin 1) q) := by
  unfold sout0_A_1
  unfold kernelRun0_A
  dsimp only
  sl_unfold_words
  refine (View.read_writes_cons_unit_of_not_mem VS0_1 VS0_1.junk _ _ _ (ix3 (0 : Fin 1) (0 : Fin 1) q)
    (size := ![1, 1, 1024]) (k0_off1_eq i) (2 : Fin 3) (by exact hq)).trans ?_
  exact reset_read VS0_1 _

/-! ## Case B -/

/-- The row accumulator after the point: the tile's row minima folded into what the point before left. -/
theorem s0_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : ¬cond0_2 i) (hc3 : ¬cond0_3 i)
    (x0 x1 : Vec Ideal S1x1024x3 .f32) (xs0 : Vec Ideal S1x1x1024 .f32) (xs1 : Vec Ideal S1x1x4096 .f32) :
    sout0_B_0 (F := Ideal) c i arg3 harg3 arg4 harg4 arg5 harg5 arg6 harg6 arg7 harg7 arg8 harg8 hc0 hc1 hc2 hc3 x0 x1 xs0 xs1 = k0_pay8 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- The column accumulator after the point, at a column of the tile: the tile's column minimum folded in. -/
theorem s1_B_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : ¬cond0_2 i) (hc3 : ¬cond0_3 i)
    (x0 x1 : Vec Ideal S1x1024x3 .f32) (xs0 : Vec Ideal S1x1x1024 .f32) (xs1 : Vec Ideal S1x1x4096 .f32) (q : Fin 4096) (s : Fin 1024) (hq : q.val = 1024 * (i 2).val + s.val) :
    sout0_B_1 (F := Ideal) c i arg3 harg3 arg4 harg4 arg5 harg5 arg6 harg6 arg7 harg7 arg8 harg8 hc0 hc1 hc2 hc3 x0 x1 xs0 xs1 (ix3 (0 : Fin 1) (0 : Fin 1) q)
      = min (xs1 (ix3 (0 : Fin 1) (0 : Fin 1) q)) (k0_pay7 x0 x1 (ix2 (0 : Fin 1) s)) := by
  unfold sout0_B_1
  unfold kernelRun0_B
  dsimp only
  sl_unfold_words
  refine (View.read_writes_cons_unit_of_mem arg8.view (harg8.unread xs1) _ _ [] (ix3 (0 : Fin 1) (0 : Fin 1) q)
    (ix3 (0 : Fin 1) (0 : Fin 1) s) (k0_off1_eq i)
    (fun a => by match a with | ⟨0, _⟩ => rfl | ⟨1, _⟩ => rfl | ⟨2, _⟩ => exact hq)).trans ?_
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]
  rw [pay1_apply]
  exact congrArg (min · _) (ld_cols i xs1 q s hq)

/-- The column accumulator after the point, at a column outside the tile: unchanged. -/
theorem s1_B_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : ¬cond0_2 i) (hc3 : ¬cond0_3 i)
    (x0 x1 : Vec Ideal S1x1024x3 .f32) (xs0 : Vec Ideal S1x1x1024 .f32) (xs1 : Vec Ideal S1x1x4096 .f32) (q : Fin 4096) (hq : q.val < 1024 * (i 2).val ∨ 1024 * (i 2).val + 1024 ≤ q.val) :
    sout0_B_1 (F := Ideal) c i arg3 harg3 arg4 harg4 arg5 harg5 arg6 harg6 arg7 harg7 arg8 harg8 hc0 hc1 hc2 hc3 x0 x1 xs0 xs1 (ix3 (0 : Fin 1) (0 : Fin 1) q) = xs1 (ix3 (0 : Fin 1) (0 : Fin 1) q) := by
  unfold sout0_B_1
  unfold kernelRun0_B
  dsimp only
  sl_unfold_words
  refine (View.read_writes_cons_unit_of_not_mem arg8.view (harg8.unread xs1) _ _ [] (ix3 (0 : Fin 1) (0 : Fin 1) q)
    (size := ![1, 1, 1024]) (k0_off1_eq i) (2 : Fin 3) (by exact hq)).trans ?_
  rw [View.writes_nil, harg8.read_unread]

/-! ## Case C -/

/-- The row accumulator after the point: the tile's row minima folded into what the point before left. -/
theorem s0_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : ¬cond0_3 i)
    (x0 x1 : Vec Ideal S1x1024x3 .f32) (xs0 : Vec Ideal S1x1x1024 .f32) (xs1 : Vec Ideal S1x1x4096 .f32) :
    sout0_C_0 (F := Ideal) c i arg3 harg3 arg4 harg4 arg5 harg5 arg6 harg6 arg7 harg7 arg8 harg8 hc0 hc1 hc2 hc3 x0 x1 xs0 xs1 = k0_pay8 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- The column accumulator after the point, at a column of the tile: the tile's column minimum folded in. -/
theorem s1_C_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : ¬cond0_3 i)
    (x0 x1 : Vec Ideal S1x1024x3 .f32) (xs0 : Vec Ideal S1x1x1024 .f32) (xs1 : Vec Ideal S1x1x4096 .f32) (q : Fin 4096) (s : Fin 1024) (hq : q.val = 1024 * (i 2).val + s.val) :
    sout0_C_1 (F := Ideal) c i arg3 harg3 arg4 harg4 arg5 harg5 arg6 harg6 arg7 harg7 arg8 harg8 hc0 hc1 hc2 hc3 x0 x1 xs0 xs1 (ix3 (0 : Fin 1) (0 : Fin 1) q)
      = min (xs1 (ix3 (0 : Fin 1) (0 : Fin 1) q)) (k0_pay7 x0 x1 (ix2 (0 : Fin 1) s)) := by
  unfold sout0_C_1
  unfold kernelRun0_C
  dsimp only
  sl_unfold_words
  refine (View.read_writes_cons_unit_of_mem arg8.view (harg8.unread xs1) _ _ [] (ix3 (0 : Fin 1) (0 : Fin 1) q)
    (ix3 (0 : Fin 1) (0 : Fin 1) s) (k0_off1_eq i)
    (fun a => by match a with | ⟨0, _⟩ => rfl | ⟨1, _⟩ => rfl | ⟨2, _⟩ => exact hq)).trans ?_
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]
  rw [pay1_apply]
  exact congrArg (min · _) (ld_cols i xs1 q s hq)

/-- The column accumulator after the point, at a column outside the tile: unchanged. -/
theorem s1_C_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : ¬cond0_3 i)
    (x0 x1 : Vec Ideal S1x1024x3 .f32) (xs0 : Vec Ideal S1x1x1024 .f32) (xs1 : Vec Ideal S1x1x4096 .f32) (q : Fin 4096) (hq : q.val < 1024 * (i 2).val ∨ 1024 * (i 2).val + 1024 ≤ q.val) :
    sout0_C_1 (F := Ideal) c i arg3 harg3 arg4 harg4 arg5 harg5 arg6 harg6 arg7 harg7 arg8 harg8 hc0 hc1 hc2 hc3 x0 x1 xs0 xs1 (ix3 (0 : Fin 1) (0 : Fin 1) q) = xs1 (ix3 (0 : Fin 1) (0 : Fin 1) q) := by
  unfold sout0_C_1
  unfold kernelRun0_C
  dsimp only
  sl_unfold_words
  refine (View.read_writes_cons_unit_of_not_mem arg8.view (harg8.unread xs1) _ _ [] (ix3 (0 : Fin 1) (0 : Fin 1) q)
    (size := ![1, 1, 1024]) (k0_off1_eq i) (2 : Fin 3) (by exact hq)).trans ?_
  rw [View.writes_nil, harg8.read_unread]

/-- The row output the point writes: the clamp of the row accumulator it leaves. -/
theorem o2_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : ¬cond0_3 i)
    (x0 x1 : Vec Ideal S1x1024x3 .f32) (xs0 : Vec Ideal S1x1x1024 .f32) (xs1 : Vec Ideal S1x1x4096 .f32) :
    out0_C_2 (F := Ideal) c i arg3 harg3 arg4 harg4 arg5 harg5 arg6 harg6 arg7 harg7 arg8 harg8 hc0 hc1 hc2 hc3 x0 x1 xs0 xs1 = k0_pay2 (k0_pay8 x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz, View.readCov_unit_zero (S := S1x1x1024) _ hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-! ## Case D -/

/-- The row accumulator after the point: the tile's row minima folded into +∞. -/
theorem s0_D (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : cond0_1 i) (hc2 : ¬cond0_2 i) (hc3 : ¬cond0_3 i)
    (x0 x1 : Vec Ideal S1x1024x3 .f32) (xs1 : Vec Ideal S1x1x4096 .f32) :
    sout0_D_0 (F := Ideal) c i arg3 harg3 arg4 harg4 arg5 harg5 arg6 harg6 arg7 harg7 arg8 harg8 hc0 hc1 hc2 hc3 x0 x1 xs1 = k0_pay8 x0 x1 (k0_pay5 (F := Ideal)) := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S1x1x1024) hz, View.readCov_unit_zero (S := S1x1x1024) _ hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- The column accumulator after the point, at a column of the tile: the tile's column minimum folded in. -/
theorem s1_D_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : cond0_1 i) (hc2 : ¬cond0_2 i) (hc3 : ¬cond0_3 i)
    (x0 x1 : Vec Ideal S1x1024x3 .f32) (xs1 : Vec Ideal S1x1x4096 .f32) (q : Fin 4096) (s : Fin 1024) (hq : q.val = 1024 * (i 2).val + s.val) :
    sout0_D_1 (F := Ideal) c i arg3 harg3 arg4 harg4 arg5 harg5 arg6 harg6 arg7 harg7 arg8 harg8 hc0 hc1 hc2 hc3 x0 x1 xs1 (ix3 (0 : Fin 1) (0 : Fin 1) q)
      = min (xs1 (ix3 (0 : Fin 1) (0 : Fin 1) q)) (k0_pay7 x0 x1 (ix2 (0 : Fin 1) s)) := by
  unfold sout0_D_1
  unfold kernelRun0_D
  dsimp only
  sl_unfold_words
  refine (View.read_writes_cons_unit_of_mem arg8.view (harg8.unread xs1) _ _ [] (ix3 (0 : Fin 1) (0 : Fin 1) q)
    (ix3 (0 : Fin 1) (0 : Fin 1) s) (k0_off1_eq i)
    (fun a => by match a with | ⟨0, _⟩ => rfl | ⟨1, _⟩ => rfl | ⟨2, _⟩ => exact hq)).trans ?_
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]
  rw [pay1_apply]
  exact congrArg (min · _) (ld_cols i xs1 q s hq)

/-- The column accumulator after the point, at a column outside the tile: unchanged. -/
theorem s1_D_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : cond0_1 i) (hc2 : ¬cond0_2 i) (hc3 : ¬cond0_3 i)
    (x0 x1 : Vec Ideal S1x1024x3 .f32) (xs1 : Vec Ideal S1x1x4096 .f32) (q : Fin 4096) (hq : q.val < 1024 * (i 2).val ∨ 1024 * (i 2).val + 1024 ≤ q.val) :
    sout0_D_1 (F := Ideal) c i arg3 harg3 arg4 harg4 arg5 harg5 arg6 harg6 arg7 harg7 arg8 harg8 hc0 hc1 hc2 hc3 x0 x1 xs1 (ix3 (0 : Fin 1) (0 : Fin 1) q) = xs1 (ix3 (0 : Fin 1) (0 : Fin 1) q) := by
  unfold sout0_D_1
  unfold kernelRun0_D
  dsimp only
  sl_unfold_words
  refine (View.read_writes_cons_unit_of_not_mem arg8.view (harg8.unread xs1) _ _ [] (ix3 (0 : Fin 1) (0 : Fin 1) q)
    (size := ![1, 1, 1024]) (k0_off1_eq i) (2 : Fin 3) (by exact hq)).trans ?_
  rw [View.writes_nil, harg8.read_unread]

/-! ## Case E -/

/-- The row accumulator after the point: the tile's row minima folded into what the point before left. -/
theorem s0_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : cond0_3 i)
    (x0 x1 : Vec Ideal S1x1024x3 .f32) (xs0 : Vec Ideal S1x1x1024 .f32) (xs1 : Vec Ideal S1x1x4096 .f32) :
    sout0_E_0 (F := Ideal) c i arg3 harg3 arg4 harg4 arg5 harg5 arg6 harg6 arg7 harg7 arg8 harg8 hc0 hc1 hc2 hc3 x0 x1 xs0 xs1 = k0_pay8 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- The column accumulator after the point, at a column of the tile: the tile's column minimum folded in. -/
theorem s1_E_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : cond0_3 i)
    (x0 x1 : Vec Ideal S1x1024x3 .f32) (xs0 : Vec Ideal S1x1x1024 .f32) (xs1 : Vec Ideal S1x1x4096 .f32) (q : Fin 4096) (s : Fin 1024) (hq : q.val = 1024 * (i 2).val + s.val) :
    sout0_E_1 (F := Ideal) c i arg3 harg3 arg4 harg4 arg5 harg5 arg6 harg6 arg7 harg7 arg8 harg8 hc0 hc1 hc2 hc3 x0 x1 xs0 xs1 (ix3 (0 : Fin 1) (0 : Fin 1) q)
      = min (xs1 (ix3 (0 : Fin 1) (0 : Fin 1) q)) (k0_pay7 x0 x1 (ix2 (0 : Fin 1) s)) := by
  unfold sout0_E_1
  unfold kernelRun0_E
  dsimp only
  sl_unfold_words
  refine (View.read_writes_cons_unit_of_mem arg8.view (harg8.unread xs1) _ _ [] (ix3 (0 : Fin 1) (0 : Fin 1) q)
    (ix3 (0 : Fin 1) (0 : Fin 1) s) (k0_off1_eq i)
    (fun a => by match a with | ⟨0, _⟩ => rfl | ⟨1, _⟩ => rfl | ⟨2, _⟩ => exact hq)).trans ?_
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]
  rw [pay1_apply]
  exact congrArg (min · _) (ld_cols i xs1 q s hq)

/-- The column accumulator after the point, at a column outside the tile: unchanged. -/
theorem s1_E_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : cond0_3 i)
    (x0 x1 : Vec Ideal S1x1024x3 .f32) (xs0 : Vec Ideal S1x1x1024 .f32) (xs1 : Vec Ideal S1x1x4096 .f32) (q : Fin 4096) (hq : q.val < 1024 * (i 2).val ∨ 1024 * (i 2).val + 1024 ≤ q.val) :
    sout0_E_1 (F := Ideal) c i arg3 harg3 arg4 harg4 arg5 harg5 arg6 harg6 arg7 harg7 arg8 harg8 hc0 hc1 hc2 hc3 x0 x1 xs0 xs1 (ix3 (0 : Fin 1) (0 : Fin 1) q) = xs1 (ix3 (0 : Fin 1) (0 : Fin 1) q) := by
  unfold sout0_E_1
  unfold kernelRun0_E
  dsimp only
  sl_unfold_words
  refine (View.read_writes_cons_unit_of_not_mem arg8.view (harg8.unread xs1) _ _ [] (ix3 (0 : Fin 1) (0 : Fin 1) q)
    (size := ![1, 1, 1024]) (k0_off1_eq i) (2 : Fin 3) (by exact hq)).trans ?_
  rw [View.writes_nil, harg8.read_unread]

/-- The row output the point writes: the clamp of the row accumulator it leaves. -/
theorem o2_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : cond0_3 i)
    (x0 x1 : Vec Ideal S1x1024x3 .f32) (xs0 : Vec Ideal S1x1x1024 .f32) (xs1 : Vec Ideal S1x1x4096 .f32) :
    out0_E_2 (F := Ideal) c i arg3 harg3 arg4 harg4 arg5 harg5 arg6 harg6 arg7 harg7 arg8 harg8 hc0 hc1 hc2 hc3 x0 x1 xs0 xs1 = k0_pay2 (k0_pay8 x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz, View.readCov_unit_zero (S := S1x1x1024) _ hz]
  simp only [View.readAt_eq_ld, harg3.read_unread, harg4.read_unread, harg7.read_unread, harg8.read_unread,
    View.ld_unit_zero (S := S1x1024x3) hz, View.ld_unit_zero (S := S1x1x1024) hz, View.ld_unit_zero (S := S1x1x4096) hz]

/-- The column output the last point of a batch writes: the clamp of the column accumulator it leaves. -/
theorem o3_E (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x4096 .f32) (harg6 : arg6.IsWhole) (arg7 : Memref sig .tc .vmem S1x1x1024 .f32) (harg7 : arg7.IsWhole) (arg8 : Memref sig .tc .vmem S1x1x4096 .f32) (harg8 : arg8.IsWhole) (hc0 : ¬cond0_0 i) (hc1 : ¬cond0_1 i) (hc2 : cond0_2 i) (hc3 : cond0_3 i)
    (x0 x1 : Vec Ideal S1x1024x3 .f32) (xs0 : Vec Ideal S1x1x1024 .f32) (xs1 : Vec Ideal S1x1x4096 .f32) :
    out0_E_3 (F := Ideal) c i arg3 harg3 arg4 harg4 arg5 harg5 arg6 harg6 arg7 harg7 arg8 harg8 hc0 hc1 hc2 hc3 x0 x1 xs0 xs1 = k0_pay3 (sout0_E_1 (F := Ideal) c i arg3 harg3 arg4 harg4 arg5 harg5 arg6 harg6 arg7 harg7 arg8 harg8 hc0 hc1 hc2 hc3 x0 x1 xs0 xs1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold sout0_E_1
  unfold kernelRun0_E
  dsimp only
  sl_unfold_words
  rw [View.canon_unit_zero hz]
  simp only [View.readAt_eq_ld, View.ld_unit_zero (S := S1x1x4096) hz]

end Cert.KernelIdeal.CaseValues

end
-- ==== Proof.Steps.lean ====
/-
  One grid point after another: what a point leaves in the two accumulators and in the two outputs, in terms of
  what the point before left. The point's place in the grid (first or last column tile, first or last point of a
  batch) selects which of the five forms of the body ran; here the five are joined into one statement per buffer.
-/
import proofs.«172423_j83425444758259_2_alg».proof.Proof.CaseValues

set_option maxRecDepth 16384

noncomputable section

namespace Cert.KernelIdeal.Steps

open Idealize.ShloMosaic Idealize.ShloMosaic.TcCoe Idealize.ShloMosaic.ValueIdx Idealize.SL.Sem
open Cert.KernelIdeal Cert.KernelIdeal.Gen Cert.KernelIdeal.TileValue Cert.KernelIdeal.CaseValues

variable (m : (ℓ : Loc nD τ sig) → Buf (Elt Ideal) ℓ) (c : Dev nD)

/-- The column-tile coordinate of a point is its position modulo 4. -/
theorem coords2 : ∀ t : Fin cfg0.N, (grid0.coords t 2).val = t.val % 4 :=
  (by decide +kernel : ∀ t : Fin grid0.N, (grid0.coords t 2).val = t.val % 4)

set_option maxHeartbeats 1600000 in
/-- The row accumulator after point t: the tile's row minima folded into +∞ at a first column tile, else into what
    the point before left. -/
theorem step_rows (t : Fin cfg0.N) :
    (outsAt0 m c t.val t.isLt).2.2.1
      = k0_pay8 (iblk m c 0 t) (iblk m c 1 t)
          (if t.val % 4 = 0 then k0_pay5 (F := Ideal) else (outsAt0 m c (t.val - 1) (Nat.lt_of_le_of_lt (Nat.sub_le _ _) t.isLt)).2.2.1) := by
  by_cases h1 : t.val % 4 = 0
  · by_cases h0 : t.val % 16 = 0
    · have h2 : ¬t.val % 4 = 3 := by omega
      have h3 : ¬t.val % 16 = 15 := by omega
      rw [outsAt0_A m c t h0 h1 h2 h3, if_pos h1]
      dsimp only
      exact s0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
    · have h2 : ¬t.val % 4 = 3 := by omega
      have h3 : ¬t.val % 16 = 15 := by omega
      rw [outsAt0_D m c t h0 h1 h2 h3, if_pos h1]
      dsimp only
      exact s0_D c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
  · have h0 : ¬t.val % 16 = 0 := by omega
    by_cases h2 : t.val % 4 = 3
    · by_cases h3 : t.val % 16 = 15
      ·
        rw [outsAt0_E m c t h0 h1 h2 h3, if_neg h1]
        dsimp only
        exact s0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
      ·
        rw [outsAt0_C m c t h0 h1 h2 h3, if_neg h1]
        dsimp only
        exact s0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
    · have h3 : ¬t.val % 16 = 15 := by omega
      rw [outsAt0_B m c t h0 h1 h2 h3, if_neg h1]
      dsimp only
      exact s0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The column accumulator before point t's update: +∞ at the first point of a batch, else what the point before left. -/
def colBase (t : Fin cfg0.N) : Vec Ideal S1x1x4096 .f32 :=
  if t.val % 16 = 0 then top4096 else (outsAt0 m c (t.val - 1) (Nat.lt_of_le_of_lt (Nat.sub_le _ _) t.isLt)).2.2.2

set_option maxHeartbeats 1600000 in
/-- The column accumulator after point t, at a column of the point's tile. -/
theorem step_cols_mem (t : Fin cfg0.N) (q : Fin 4096) (s : Fin 1024) (hq : q.val = 1024 * (t.val % 4) + s.val) :
    (outsAt0 m c t.val t.isLt).2.2.2 (ix3 (0 : Fin 1) (0 : Fin 1) q)
      = min (colBase m c t (ix3 (0 : Fin 1) (0 : Fin 1) q)) (k0_pay7 (iblk m c 0 t) (iblk m c 1 t) (ix2 (0 : Fin 1) s)) := by
  have hq' : q.val = 1024 * (grid0.coords t 2).val + s.val := by rw [coords2]; exact hq
  unfold colBase
  by_cases h1 : t.val % 4 = 0
  · by_cases h0 : t.val % 16 = 0
    · have h2 : ¬t.val % 4 = 3 := by omega
      have h3 : ¬t.val % 16 = 15 := by omega
      rw [outsAt0_A m c t h0 h1 h2 h3, if_pos h0]
      dsimp only
      exact s1_A_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)  q s hq'
    · have h2 : ¬t.val % 4 = 3 := by omega
      have h3 : ¬t.val % 16 = 15 := by omega
      rw [outsAt0_D m c t h0 h1 h2 h3, if_neg h0]
      dsimp only
      exact s1_D_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 q s hq'
  · have h0 : ¬t.val % 16 = 0 := by omega
    by_cases h2 : t.val % 4 = 3
    · by_cases h3 : t.val % 16 = 15
      ·
        rw [outsAt0_E m c t h0 h1 h2 h3, if_neg h0]
        dsimp only
        exact s1_E_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q s hq'
      ·
        rw [outsAt0_C m c t h0 h1 h2 h3, if_neg h0]
        dsimp only
        exact s1_C_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q s hq'
    · have h3 : ¬t.val % 16 = 15 := by omega
      rw [outsAt0_B m c t h0 h1 h2 h3, if_neg h0]
      dsimp only
      exact s1_B_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q s hq'

set_option maxHeartbeats 1600000 in
/-- The column accumulator after point t, at a column outside the point's tile: unchanged. -/
theorem step_cols_not_mem (t : Fin cfg0.N) (q : Fin 4096)
    (hq : q.val < 1024 * (t.val % 4) ∨ 1024 * (t.val % 4) + 1024 ≤ q.val) :
    (outsAt0 m c t.val t.isLt).2.2.2 (ix3 (0 : Fin 1) (0 : Fin 1) q) = colBase m c t (ix3 (0 : Fin 1) (0 : Fin 1) q) := by
  have hq' : q.val < 1024 * (grid0.coords t 2).val ∨ 1024 * (grid0.coords t 2).val + 1024 ≤ q.val := by
    rw [coords2]; exact hq
  unfold colBase
  by_cases h1 : t.val % 4 = 0
  · by_cases h0 : t.val % 16 = 0
    · have h2 : ¬t.val % 4 = 3 := by omega
      have h3 : ¬t.val % 16 = 15 := by omega
      rw [outsAt0_A m c t h0 h1 h2 h3, if_pos h0]
      dsimp only
      exact s1_A_not_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)  q hq'
    · have h2 : ¬t.val % 4 = 3 := by omega
      have h3 : ¬t.val % 16 = 15 := by omega
      rw [outsAt0_D m c t h0 h1 h2 h3, if_neg h0]
      dsimp only
      exact s1_D_not_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2 q hq'
  · have h0 : ¬t.val % 16 = 0 := by omega
    by_cases h2 : t.val % 4 = 3
    · by_cases h3 : t.val % 16 = 15
      ·
        rw [outsAt0_E m c t h0 h1 h2 h3, if_neg h0]
        dsimp only
        exact s1_E_not_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q hq'
      ·
        rw [outsAt0_C m c t h0 h1 h2 h3, if_neg h0]
        dsimp only
        exact s1_C_not_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q hq'
    · have h3 : ¬t.val % 16 = 15 := by omega
      rw [outsAt0_B m c t h0 h1 h2 h3, if_neg h0]
      dsimp only
      exact s1_B_not_mem c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 q hq'

set_option maxHeartbeats 1600000 in
/-- At the last point of a batch the column output is the clamp of the column accumulator the point leaves. -/
theorem step_col_out (t : Fin cfg0.N) (h3 : t.val % 16 = 15) :
    (outsAt0 m c t.val t.isLt).2.1 = k0_pay3 (outsAt0 m c t.val t.isLt).2.2.2 := by
  have h2 : t.val % 4 = 3 := by omega
  have h1 : ¬t.val % 4 = 0 := by omega
  have h0 : ¬t.val % 16 = 0 := by omega
  rw [outsAt0_E m c t h0 h1 h2 h3]
  dsimp only
  exact o3_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Steps

end
-- ==== Proof.StepsOut.lean ====
/-
  At a point whose column tile is the last, the row output the point writes is the clamp below at 0 of the row
  accumulator the point leaves: in both forms of the body that store the row output.
-/
import proofs.«172423_j83425444758259_2_alg».proof.Proof.CaseValues

set_option maxRecDepth 16384

noncomputable section

namespace Cert.KernelIdeal.Steps

open Idealize.ShloMosaic Idealize.ShloMosaic.TcCoe Idealize.ShloMosaic.ValueIdx Idealize.SL.Sem
open Cert.KernelIdeal Cert.KernelIdeal.Gen Cert.KernelIdeal.TileValue Cert.KernelIdeal.CaseValues

variable (m : (ℓ : Loc nD τ sig) → Buf (Elt Ideal) ℓ) (c : Dev nD)

set_option maxHeartbeats 1600000 in
/-- At a last column tile the row output is the clamp of the row accumulator the point leaves. -/
theorem step_row_out (t : Fin cfg0.N) (h2 : t.val % 4 = 3) :
    (outsAt0 m c t.val t.isLt).1 = k0_pay2 (outsAt0 m c t.val t.isLt).2.2.1 := by
  have h1 : ¬t.val % 4 = 0 := by omega
  have h0 : ¬t.val % 16 = 0 := by omega
  by_cases h3 : t.val % 16 = 15
  · rw [outsAt0_E m c t h0 h1 h2 h3]
    dsimp only
    refine (o2_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 ).trans ?_
    exact congrArg k0_pay2 (s0_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 ).symm
  · rw [outsAt0_C m c t h0 h1 h2 h3]
    dsimp only
    refine (o2_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 ).trans ?_
    exact congrArg k0_pay2 (s0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 ).symm

end Cert.KernelIdeal.Steps

end
-- ==== Proof.Invariant.lean ====
/-
  The two accumulators after every grid point, and the two result arrays.

  Points run batch by batch, within a batch row tile by row tile, within a row tile column tile by column tile:
  point t has batch t / 16, row tile (t / 4) % 4 and column tile t % 4, tiles being 1024 wide. After point t
    · the row accumulator holds, for each of the row tile's 1024 rows, the minimum of the distance table over the
      columns of the column tiles met so far: the first 1024·(t % 4 + 1) columns;
    · the column accumulator holds, for each of the 4096 columns, the minimum over the rows of the row tiles that
      have met this column's tile so far: one more than the finished row tiles if the column's tile is not after
      the current one.
  Both by induction on the point, from what one point does to what the point before left. At a last column tile
  the row accumulator is the minimum over all 4096 columns and is written out clamped; at the last point of a batch
  the same holds of the column accumulator.
-/
import proofs.«172423_j83425444758259_2_alg».proof.Proof.Steps
import proofs.«172423_j83425444758259_2_alg».proof.Proof.StepsOut
import proofs.«172423_j83425444758259_2_alg».proof.Proof.BlocksToArrays
import proofs.«172423_j83425444758259_2_alg».proof.Proof.ChamferSpec

set_option maxRecDepth 16384

noncomputable section

namespace Cert.KernelIdeal.Invariant

open Idealize.ShloMosaic Idealize.ShloMosaic.TcCoe Idealize.ShloMosaic.ValueIdx Idealize.SL.Sem
open Cert.KernelIdeal Cert.KernelIdeal.Gen Cert.KernelIdeal.TileValue Cert.KernelIdeal.CaseValues Cert.KernelIdeal.Steps

variable (m : (ℓ : Loc nD τ sig) → Buf (Elt Ideal) ℓ) (c : Dev nD)

/-- The two clouds as the program finds them. -/
abbrev cloudX : Chamfer.Pts.Idx → EReal := m ((c : Thread nD τ).loc main_arg0)
abbrev cloudY : Chamfer.Pts.Idx → EReal := m ((c : Thread nD τ).loc main_arg1)

/-- An entry named by coordinates within the extents. -/
theorem pt_eq (X : Chamfer.Pts.Idx → EReal) (b : Fin 16) (n : Fin 4096) (k : Fin 3) :
    Chamfer.pt X b.val n.val k.val = X (ix3 b n k) := by
  unfold Chamfer.pt
  exact congrArg X (funext fun a => Fin.ext (by
    match a with
    | ⟨0, _⟩ => exact Nat.mod_eq_of_lt b.isLt
    | ⟨1, _⟩ => exact Nat.mod_eq_of_lt n.isLt
    | ⟨2, _⟩ => exact Nat.mod_eq_of_lt k.isLt))

/-- A tile built from blocks that are runs of 1024 points of the two clouds is that part of the distance table. -/
theorem tile_of_blocks (x0 x1 : S1x1024x3.Idx → EReal) (X Y : Chamfer.Pts.Idx → EReal) (b n0 q0 : ℕ)
    (h0 : ∀ (r : Fin 1024) (k : Fin 3), x0 (ix3 (0 : Fin 1) r k) = Chamfer.pt X b (n0 + r.val) k.val)
    (h1 : ∀ (s : Fin 1024) (k : Fin 3), x1 (ix3 (0 : Fin 1) s k) = Chamfer.pt Y b (q0 + s.val) k.val) (r s : Fin 1024) :
    tile x0 x1 r s = Chamfer.dist X Y b (n0 + r.val) (q0 + s.val) := by
  unfold tile Chamfer.dist Chamfer.sq
  simp only [h0, h1]

/-- The blocks of point t are the point's row tile of the first cloud and column tile of the second. -/
theorem blk0 (t : Fin cfg0.N) (r : Fin 1024) (k : Fin 3) :
    iblk m c 0 t (ix3 (0 : Fin 1) r k)
      = Chamfer.pt (cloudX m c) (t.val / 16) (1024 * ((t.val / 4) % 4) + r.val) k.val := by
  have hN : cfg0.N = 256 := N_0
  have := t.isLt
  refine ((Arrays.iblk0_apply m c t r k).trans ?_).trans
    (pt_eq (cloudX m c) ⟨t.val / 16, by omega⟩ ⟨1024 * ((t.val / 4) % 4) + r.val, by omega⟩ k).symm
  rfl

theorem blk1 (t : Fin cfg0.N) (s : Fin 1024) (k : Fin 3) :
    iblk m c 1 t (ix3 (0 : Fin 1) s k)
      = Chamfer.pt (cloudY m c) (t.val / 16) (1024 * (t.val % 4) + s.val) k.val := by
  have hN : cfg0.N = 256 := N_0
  have := t.isLt
  refine ((Arrays.iblk1_apply m c t s k).trans ?_).trans
    (pt_eq (cloudY m c) ⟨t.val / 16, by omega⟩ ⟨1024 * (t.val % 4) + s.val, by omega⟩ k).symm
  rfl

/-- What the row accumulator should hold after point t, at row r of the point's row tile. -/
def rowAcc (X Y : Chamfer.Pts.Idx → EReal) (t r : ℕ) : EReal :=
  (Finset.range (1024 * (t % 4 + 1))).inf fun q => Chamfer.dist X Y (t / 16) (1024 * ((t / 4) % 4) + r) q

/-- What the column accumulator should hold after point t, at column q. -/
def colAcc (X Y : Chamfer.Pts.Idx → EReal) (t q : ℕ) : EReal :=
  (Finset.range (1024 * ((t / 4) % 4 + if q / 1024 ≤ t % 4 then 1 else 0))).inf fun n => Chamfer.dist X Y (t / 16) n q

/-- The accumulators hold what they should after the point at position n. -/
def Inv (n : ℕ) (hn : n < cfg0.N) : Prop :=
  (∀ r : Fin 1024, (outsAt0 m c n hn).2.2.1 (ix3 (0 : Fin 1) (0 : Fin 1) r) = rowAcc (cloudX m c) (cloudY m c) n r.val)
  ∧ ∀ q : Fin 4096, (outsAt0 m c n hn).2.2.2 (ix3 (0 : Fin 1) (0 : Fin 1) q) = colAcc (cloudX m c) (cloudY m c) n q.val

/-- The column accumulator before point t's update: per column, the minimum over the row tiles that met the column's
    tile before this point. -/
theorem base_eq (t : Fin cfg0.N)
    (hprev : t.val ≠ 0 → Inv m c (t.val - 1) (Nat.lt_of_le_of_lt (Nat.sub_le _ _) t.isLt)) (q : Fin 4096) :
    colBase m c t (ix3 (0 : Fin 1) (0 : Fin 1) q)
      = (Finset.range (1024 * ((t.val / 4) % 4 + if q.val / 1024 < t.val % 4 then 1 else 0))).inf
          fun n => Chamfer.dist (cloudX m c) (cloudY m c) (t.val / 16) n q.val := by
  have hN : cfg0.N = 256 := N_0
  have htl := t.isLt
  unfold colBase
  by_cases h16 : t.val % 16 = 0
  · rw [if_pos h16]
    have e : 1024 * ((t.val / 4) % 4 + if q.val / 1024 < t.val % 4 then 1 else 0) = 0 := by split_ifs <;> omega
    rw [e, Finset.range_zero, Finset.inf_empty]
    rfl
  · rw [if_neg h16, (hprev (by omega)).2 q]
    unfold colAcc
    have e1 : (t.val - 1) / 16 = t.val / 16 := by omega
    have e2 : 1024 * (((t.val - 1) / 4) % 4 + if q.val / 1024 ≤ (t.val - 1) % 4 then 1 else 0)
        = 1024 * ((t.val / 4) % 4 + if q.val / 1024 < t.val % 4 then 1 else 0) := by split_ifs <;> omega
    rw [e1, e2]

/-- One point keeps the accumulators right. -/
theorem inv_step (t : Fin cfg0.N)
    (hprev : t.val ≠ 0 → Inv m c (t.val - 1) (Nat.lt_of_le_of_lt (Nat.sub_le _ _) t.isLt)) :
    Inv m c t.val t.isLt := by
  have hN : cfg0.N = 256 := N_0
  have htl := t.isLt
  refine ⟨fun r => ?_, fun q => ?_⟩
  · rw [step_rows m c t]
    refine (pay8_apply (iblk m c 0 t) (iblk m c 1 t) _ r).trans ?_
    unfold rowAcc
    rw [Chamfer.inf_range_block]
    refine congrArg₂ min ?_ (Finset.inf_congr rfl fun s _ =>
      tile_of_blocks _ _ _ _ _ _ _ (blk0 m c t) (blk1 m c t) r s)
    by_cases h : t.val % 4 = 0
    · rw [if_pos h, pay5_apply, h, Nat.mul_zero, Finset.range_zero, Finset.inf_empty]
    · rw [if_neg h, (hprev (by omega)).1 r]
      unfold rowAcc
      have e1 : (t.val - 1) / 16 = t.val / 16 := by omega
      have e2 : (t.val - 1) / 4 % 4 = t.val / 4 % 4 := by omega
      have e3 : (t.val - 1) % 4 + 1 = t.val % 4 := by omega
      rw [e1, e2, e3]
  · have hql := q.isLt
    by_cases hmem : q.val / 1024 = t.val % 4
    · have hs : q.val - 1024 * (t.val % 4) < 1024 := by omega
      have hq : q.val = 1024 * (t.val % 4) + (⟨q.val - 1024 * (t.val % 4), hs⟩ : Fin 1024).val := by
        show q.val = 1024 * (t.val % 4) + (q.val - 1024 * (t.val % 4))
        omega
      rw [step_cols_mem m c t q ⟨q.val - 1024 * (t.val % 4), hs⟩ hq]
      unfold colAcc
      rw [if_pos (le_of_eq hmem), Chamfer.inf_range_block]
      refine congrArg₂ min ?_ ((pay7_apply (iblk m c 0 t) (iblk m c 1 t) _).trans
        (Finset.inf_congr rfl fun r _ => ?_))
      · rw [base_eq m c t hprev q, if_neg (by omega), Nat.add_zero]
      · refine (tile_of_blocks _ _ _ _ _ _ _ (blk0 m c t) (blk1 m c t) r ⟨q.val - 1024 * (t.val % 4), hs⟩).trans ?_
        show Chamfer.dist _ _ _ _ (1024 * (t.val % 4) + (q.val - 1024 * (t.val % 4))) = _
        rw [show 1024 * (t.val % 4) + (q.val - 1024 * (t.val % 4)) = q.val by omega]
    · rw [step_cols_not_mem m c t q (by omega), base_eq m c t hprev q]
      unfold colAcc
      have e : (if q.val / 1024 < t.val % 4 then 1 else 0) = (if q.val / 1024 ≤ t.val % 4 then 1 else 0) := by
        split_ifs <;> omega
      rw [e]

/-- The accumulators are right after every point. -/
theorem inv : ∀ (n : ℕ) (hn : n < cfg0.N), Inv m c n hn
  | 0, hn => inv_step m c ⟨0, hn⟩ (fun h => absurd rfl h)
  | n + 1, hn => inv_step m c ⟨n + 1, hn⟩ (fun _ => inv n _)

/-- At a last column tile the row output holds the clamped minimum over all columns. -/
theorem row_out (t : Fin cfg0.N) (h : t.val % 4 = 3) (r : Fin 1024) :
    (outsAt0 m c t.val t.isLt).1 (ix3 (0 : Fin 1) (0 : Fin 1) r)
      = Chamfer.rowMin (cloudX m c) (cloudY m c) (t.val / 16) (1024 * ((t.val / 4) % 4) + r.val) := by
  rw [step_row_out m c t h, pay2_apply, (inv m c t.val t.isLt).1 r]
  unfold rowAcc Chamfer.rowMin
  rw [show 1024 * (t.val % 4 + 1) = 4096 by omega]

/-- At the last point of a batch the column output holds the clamped minimum over all rows. -/
theorem col_out (t : Fin cfg0.N) (h : t.val % 16 = 15) (q : Fin 4096) :
    (outsAt0 m c t.val t.isLt).2.1 (ix3 (0 : Fin 1) (0 : Fin 1) q)
      = Chamfer.colMin (cloudX m c) (cloudY m c) (t.val / 16) q.val := by
  have hql := q.isLt
  rw [step_col_out m c t h, pay3_apply, (inv m c t.val t.isLt).2 q]
  unfold colAcc Chamfer.colMin
  rw [show 1024 * ((t.val / 4) % 4 + if q.val / 1024 ≤ t.val % 4 then 1 else 0) = 4096 by split_ifs <;> omega]

/-- The two result arrays: for every point of one cloud its clamped least squared distance to the other cloud. -/
def rowArr (X Y : Chamfer.Pts.Idx → EReal) : S16x1x4096.Idx → EReal :=
  fun y => Chamfer.rowMin X Y (y 0).val (y 2).val
def colArr (X Y : Chamfer.Pts.Idx → EReal) : S16x1x4096.Idx → EReal :=
  fun y => Chamfer.colMin X Y (y 0).val (y 2).val

theorem arr2 : (dats m 0 c).arrAt 2 cfg0.N = rowArr (cloudX m c) (cloudY m c) :=
  Arrays.final2 m c (rowArr (cloudX m c) (cloudY m c)) (fun t h r => row_out m c t h r)

theorem arr3 : (dats m 0 c).arrAt 3 cfg0.N = colArr (cloudX m c) (cloudY m c) :=
  Arrays.final3 m c (colArr (cloudX m c) (cloudY m c)) (fun t h q => col_out m c t h q)

end Cert.KernelIdeal.Invariant

end
-- ==== Proof.KernelRun.lean ====
/-
  The kernel program's run, read: its result is the common ending of the two tables of minima.

  The run of the grid leaves the two result arrays at the row minima and the column minima of the argument clouds
  (the invariant over the grid points); the operations after the grid read each array with its unit middle axis
  dropped and apply the common ending. The arguments are inputs of the grid and are left as they were.
-/
import proofs.«172423_j83425444758259_2_alg».proof.Proof.Gen.KernelIdeal.Frame
import proofs.«172423_j83425444758259_2_alg».proof.Proof.Invariant
import proofs.«172423_j83425444758259_2_alg».proof.Proof.MeanTail
import proofs.«172423_j83425444758259_2_alg».proof.Proof.ChamferSpec
import Idealize.ShloMosaic.Lib.Pipeline.Value
import Idealize.ShloMosaic.Lib.ValueIdx

set_option maxRecDepth 16384

noncomputable section

namespace Cert.KernelIdeal.RunValue

open Cert.KernelIdeal Cert.KernelIdeal.Gen Cert.KernelIdeal.Invariant Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array of row minima, stored with a unit middle axis, read as a 16 × 4096 table: entry (b, n) is the row minimum of
    point n of batch b. -/
theorem row_read (X Y : Chamfer.Pts.Idx → EReal) (h : S16x1x4096.ShapeCasts S16x4096) :
    shapeCast S16x4096 (rowArr X Y) h = fun i => Chamfer.rowMin X Y (i 0).val (i 1).val := by
  funext i
  obtain ⟨b, n, rfl⟩ : ∃ (b : Fin 16) (n : Fin 4096), i = ix2 b n := ⟨i 0, i 1, eq_ix2 i⟩
  rw [Chamfer.Tail.dropMiddle_apply]
  rfl

/-- The same for the array of column minima. -/
theorem col_read (X Y : Chamfer.Pts.Idx → EReal) (h : S16x1x4096.ShapeCasts S16x4096) :
    shapeCast S16x4096 (colArr X Y) h = fun i => Chamfer.colMin X Y (i 0).val (i 1).val := by
  funext i
  obtain ⟨b, q, rfl⟩ : ∃ (b : Fin 16) (q : Fin 4096), i = ix2 b q := ⟨i 0, i 1, eq_ix2 i⟩
  rw [Chamfer.Tail.dropMiddle_apply]
  rfl

/-- The program's result after the operations that follow the grid: the common ending of the two tables of minima. -/
theorem tail_eq (c : Dev nD) :
    Pipeline.afterTail₀ cfgs (dats m) 0 (V0 m) [hostOps1] c main_v0
      = Chamfer.Tail.tail (fun i => Chamfer.rowMin (cloudX m c) (cloudY m c) (i 0).val (i 1).val)
          (fun i => Chamfer.colMin (cloudX m c) (cloudY m c) (i 0).val (i 1).val) := by
  unfold Pipeline.afterTail₀
  show StableHlo.after hostOps1 (Pipeline.withArrays (cfgs 0).spec c (V0 m c) fun w => (dats m 0 c).arrAt w (cfgs 0).N) (Proc.devRef .tc main_v0) = _
  refine (Chamfer.Tail.kernel_eq _).trans ?_
  have e2 : (Pipeline.withArrays (cfgs 0).spec c (V0 m c) (fun w => (dats m 0 c).arrAt w (cfgs 0).N) (Proc.devRef .tc main_call0_call0_v0_0) : S16x1x4096.Idx → EReal)
      = rowArr (cloudX m c) (cloudY m c) :=
    (Pipeline.withArrays_arr spec0 launch0.win.arr_inj c (V0 m c) (fun w => (dats m 0 c).arrAt w (cfgs 0).N) 2).trans (arr2 m c)
  have e3 : (Pipeline.withArrays (cfgs 0).spec c (V0 m c) (fun w => (dats m 0 c).arrAt w (cfgs 0).N) (Proc.devRef .tc main_call0_call0_v0_1) : S16x1x4096.Idx → EReal)
      = colArr (cloudX m c) (cloudY m c) :=
    (Pipeline.withArrays_arr spec0 launch0.win.arr_inj c (V0 m c) (fun w => (dats m 0 c).arrAt w (cfgs 0).N) 3).trans (arr3 m c)
  rw [e2, e3, row_read, col_read]

/-- The kernel program runs, leaves the common ending of the two tables of minima of its argument clouds in its result,
    and leaves the arguments as they were. -/
theorem run : θ_run (defs (F := Ideal)) (onTc (τ := τ) (main (F := Ideal))) ⟨m, fun _ => 0, ρ⟩ (fun r => ∀ c : Dev nD,
      r.2.mem ((c.tc : Thread nD τ).loc main_v0)
        = Chamfer.Tail.tail (fun i => Chamfer.rowMin (cloudX m c) (cloudY m c) (i 0).val (i 1).val)
            (fun i => Chamfer.colMin (cloudX m c) (cloudY m c) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.lean ====
/-
  The Chamfer loss of two clouds of 16 × 4096 points in three coordinates, computed two ways, is one extended real.

  Both programs form the squared distances |x|² + |y|² − 2⟨x, y⟩ between the points of a batch, take for every point the
  least distance to the other cloud, average these minima per batch and cloud, add the two averages and average over
  the batches. They differ in how the table and its minima are formed: one multiplies the second cloud by −2 before
  the inner product, takes the minima tile by tile over a 16 × 4 × 4 grid into running accumulators started at +∞, and
  clamps below at 0 only at the end; the other subtracts twice the inner product, clamps every entry, and takes each
  minimum in one reduction. On clouds of real numbers the two arrangements of an entry agree (a ring identity), and
  clamping below at 0 commutes with a minimum over a finite set (x ↦ max x 0 is monotone and fixes +∞), so both tables
  of minima are the specification's row and column minima: for the tiled program by an invariant over the grid points
  (after a point the accumulators hold the minima over the tiles seen so far), for the other by reading its reductions
  as infima. The operations from the two tables of minima to the loss are the same in both programs.
  That the inputs are real numbers is the precondition: every entry has absolute value below +∞.
-/
import proofs.«172423_j83425444758259_2_alg».proof.Defs
import proofs.«172423_j83425444758259_2_alg».proof.Proof.Gen.Kernel
import proofs.«172423_j83425444758259_2_alg».proof.Proof.Gen.Kernel.Skeleton
import proofs.«172423_j83425444758259_2_alg».proof.Proof.Gen.Kernel.Launch
import proofs.«172423_j83425444758259_2_alg».proof.Proof.Gen.Kernel.Points
import proofs.«172423_j83425444758259_2_alg».proof.Proof.Gen.Kernel.Frame
import proofs.«172423_j83425444758259_2_alg».proof.Proof.Gen.KernelIdeal
import proofs.«172423_j83425444758259_2_alg».proof.Proof.Gen.KernelIdeal.Skeleton
import proofs.«172423_j83425444758259_2_alg».proof.Proof.Gen.KernelIdeal.Launch
import proofs.«172423_j83425444758259_2_alg».proof.Proof.Gen.KernelIdeal.Points
import proofs.«172423_j83425444758259_2_alg».proof.Proof.Gen.KernelIdeal.Frame
import proofs.«172423_j83425444758259_2_alg».proof.Proof.Gen.ReferenceIdeal
import proofs.«172423_j83425444758259_2_alg».proof.Proof.Gen.Pre_finite_inputs
import proofs.«172423_j83425444758259_2_alg».proof.Proof.Gen.ReferenceIdeal.Run
import proofs.«172423_j83425444758259_2_alg».proof.Proof.Gen.ReferenceIdeal.Read
import proofs.«172423_j83425444758259_2_alg».proof.Proof.ChamferSpec
import proofs.«172423_j83425444758259_2_alg».proof.Proof.RefMinima
import proofs.«172423_j83425444758259_2_alg».proof.Proof.FiniteInputs
import proofs.«172423_j83425444758259_2_alg».proof.Proof.BlocksToArrays
import proofs.«172423_j83425444758259_2_alg».proof.Proof.MeanTail
import proofs.«172423_j83425444758259_2_alg».proof.Proof.Invariant
import proofs.«172423_j83425444758259_2_alg».proof.Proof.KernelRun
import Idealize.ShloMosaic.Adequacy
import Idealize.ShloMosaic.Init

noncomputable section

namespace Cert.Proof

open Idealize.ShloMosaic Idealize.SL.Sem

/-- The bit-exact kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- So does the reference program. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote none of its operations. -/
theorem preserves : Cert.preserves_Kernel_KernelIdeal := trivial

/-- On clouds of real numbers the two programs end with the same loss: each is the common ending of the table of row
    minima and the table of column minima of the clamped squared distances. -/
theorem algebraic : Cert.algebraic_KernelIdeal_ReferenceIdeal := by
  intro m ρ m' ρ' hpre hagree
  refine ⟨fun c => Chamfer.Tail.tail
      (fun i => Chamfer.rowMin (Cert.KernelIdeal.Invariant.cloudX m c) (Cert.KernelIdeal.Invariant.cloudY m c) (i 0).val (i 1).val)
      (fun i => Chamfer.colMin (Cert.KernelIdeal.Invariant.cloudX m c) (Cert.KernelIdeal.Invariant.cloudY m c) (i 0).val (i 1).val),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Pre_finite_inputs.Fin.finite_of_pre _ _ (hpre c)
  rw [Cert.ReferenceIdeal.Read.val_main_v25_eq, Chamfer.Tail.ref_eq, (hagree c).1, (hagree c).2,
    Cert.ReferenceIdeal.RefValue.v15_eq _ _ hX hY, Cert.ReferenceIdeal.RefValue.v16_eq _ _ hX hY]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
